-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S4000x512 : Shape := ⟨2, ![4000, 512]⟩
abbrev S4000x16 : Shape := ⟨2, ![4000, 16]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x16 : Shape := ⟨2, ![3200000, 16]⟩
abbrev S1x16 : Shape := ⟨2, ![1, 16]⟩
abbrev S100000x7 : Shape := ⟨2, ![100000, 7]⟩
abbrev S4000x7 : Shape := ⟨2, ![4000, 7]⟩
abbrev S3200000x7 : Shape := ⟨2, ![3200000, 7]⟩
abbrev S1x7 : Shape := ⟨2, ![1, 7]⟩

abbrev nBuf : Space → Nat
  | .hbm => 70
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S1, .i32⟩
  | .hbm, ⟨20, _⟩ => ⟨S_, .i32⟩
  | .hbm, ⟨21, _⟩ => ⟨S3200000x1, .i32⟩
  | .hbm, ⟨22, _⟩ => ⟨S3200000x1, .i1⟩
  | .hbm, ⟨23, _⟩ => ⟨S1x1, .i32⟩
  | .hbm, ⟨24, _⟩ => ⟨S3200000x1, .i32⟩
  | .hbm, ⟨25, _⟩ => ⟨S3200000x1, .i1⟩
  | .hbm, ⟨26, _⟩ => ⟨S3200000x1, .i1⟩
  | .hbm, ⟨27, _⟩ => ⟨S_, .i1⟩
  | .hbm, ⟨28, _⟩ => ⟨S3200000, .i1⟩
  | .hbm, ⟨29, _⟩ => ⟨S3200000x16, .f32⟩
  | .hbm, ⟨30, _⟩ => ⟨S3200000x16, .i1⟩
  | .hbm, ⟨31, _⟩ => ⟨S_, .f32⟩
  | .hbm, ⟨32, _⟩ => ⟨S3200000x16, .f32⟩
  | .hbm, ⟨33, _⟩ => ⟨S3200000x16, .f32⟩
  | .hbm, ⟨34, _⟩ => ⟨S_, .f32⟩
  | .hbm, ⟨35, _⟩ => ⟨S100000x16, .f32⟩
  | .hbm, ⟨36, _⟩ => ⟨S3200000x1, .i32⟩
  | .hbm, ⟨37, _⟩ => ⟨S100000x16, .f32⟩
  | .hbm, ⟨38, _⟩ => ⟨S1x16, .f32⟩
  | .hbm, ⟨39, _⟩ => ⟨S100000x16, .f32⟩
  | .hbm, ⟨40, _⟩ => ⟨S100000x7, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S1, .i32⟩
  | .hbm, ⟨50, _⟩ => ⟨S_, .i32⟩
  | .hbm, ⟨51, _⟩ => ⟨S3200000x1, .i32⟩
  | .hbm, ⟨52, _⟩ => ⟨S3200000x1, .i1⟩
  | .hbm, ⟨53, _⟩ => ⟨S1x1, .i32⟩
  | .hbm, ⟨54, _⟩ => ⟨S3200000x1, .i32⟩
  | .hbm, ⟨55, _⟩ => ⟨S3200000x1, .i1⟩
  | .hbm, ⟨56, _⟩ => ⟨S3200000x1, .i1⟩
  | .hbm, ⟨57, _⟩ => ⟨S_, .i1⟩
  | .hbm, ⟨58, _⟩ => ⟨S3200000, .i1⟩
  | .hbm, ⟨59, _⟩ => ⟨S3200000x7, .f32⟩
  | .hbm, ⟨60, _⟩ => ⟨S3200000x7, .i1⟩
  | .hbm, ⟨61, _⟩ => ⟨S_, .f32⟩
  | .hbm, ⟨62, _⟩ => ⟨S3200000x7, .f32⟩
  | .hbm, ⟨63, _⟩ => ⟨S3200000x7, .f32⟩
  | .hbm, ⟨64, _⟩ => ⟨S_, .f32⟩
  | .hbm, ⟨65, _⟩ => ⟨S100000x7, .f32⟩
  | .hbm, ⟨66, _⟩ => ⟨S3200000x1, .i32⟩
  | .hbm, ⟨67, _⟩ => ⟨S100000x7, .f32⟩
  | .hbm, ⟨68, _⟩ => ⟨S1x7, .f32⟩
  | .hbm, ⟨69, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S16x7, .f32⟩
  | .local _ .vmem, ⟨13, _⟩ => ⟨S4000x7, .f32⟩
  | .local _ .vmem, ⟨14, _⟩ => ⟨S4000x7, .f32⟩
  | .local _ .vmem, ⟨15, _⟩ => ⟨S4000x7, .f32⟩
  | .local _ .vmem, ⟨16, _⟩ => ⟨S4000x7, .f32⟩
  | .local _ .vmem, ⟨17, _⟩ => ⟨S1x7, .f32⟩
  | .local _ .vmem, ⟨18, _⟩ => ⟨S4000x7, .f32⟩
  | .local _ .vmem, ⟨19, _⟩ => ⟨S4000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v12 : Ref sig .tc := ⟨.hbm, 63, rfl⟩
abbrev main_cst_0 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  shapeCasts_S4000x16_S4000x16 : S4000x16.ShapeCasts S4000x16
  inb_S16x7_S16x7_0_0 : ∀ a, (![0, 0] : Fin 2 → Nat) a + S16x7.size a ≤ S16x7.size a
  h_S16x7 : 0 < S16x7.numel
  inb_S4000x7_S4000x7_0_0 : ∀ a, (![0, 0] : Fin 2 → Nat) a + S4000x7.size a ≤ S4000x7.size a
  h_S4000x7 : 0 < S4000x7.numel
  bcast_S3200000_S3200000x7_0 : S3200000.BroadcastsInDim S3200000x7 (![0] : Fin 1 → Fin S3200000x7.rank)
  bcast_S_S3200000x7 : S_.BroadcastsInDim S3200000x7 (![] : Fin 0 → Fin S3200000x7.rank)
  bcast_S_S100000x7 : S_.BroadcastsInDim S100000x7 (![] : Fin 0 → Fin S100000x7.rank)
  shapeCasts_S7_S1x7 : S7.ShapeCasts S1x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S4000x7 : S1x7.Broadcasts S4000x7
  shapeCasts_S4000x7_S4000x7 : S4000x7.ShapeCasts S4000x7
  dot_S4000x512_S512x16_S4000x16_1_0_0_1_n_n_wf : DotDims.WF S4000x512 S512x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x7_S4000x7_1_0_0_1_n_n_wf : DotDims.WF S4000x16 S16x7 S4000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x7.size a ≤ S100000x7.size a
  hwx2_2 : ∀ i : grid2.Coords, EltTy.bits .f32 = 32 ∨ (Rect.block (s := S100000x7) S4000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x7.size a ≤ S100000x7.size a
  hwx3_0 : ∀ i : grid3.Coords, EltTy.bits .f32 = 32 ∨ (Rect.block (s := S100000x7) S4000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x7.size a ≤ S100000x7.size a
  hwx3_2 : ∀ i : grid3.Coords, EltTy.bits .f32 = 32 ∨ (Rect.block (s := S100000x7) S4000x7.size (cc3_transform_2 i) (hinb3_2 i)).WholeWords (EltTy.packing .f32)

variable [Facts₀]

def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x7_S4000x7_1_0_0_1_n_n : DotDims S4000x16 S16x7 S4000x7 where
  lhsContracting := [1]
  rhsContracting := [0]
  lhsNonContracting := [0]
  rhsNonContracting := [1]
  lhsBatch := []
  rhsBatch := []
  wf := dot_S4000x16_S16x7_S4000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S4000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S4000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩

abbrev nBuf : Space → Nat
  | .hbm => 75
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S1, .i32⟩
  | .hbm, ⟨20, _⟩ => ⟨S_, .i32⟩
  | .hbm, ⟨21, _⟩ => ⟨S3200000x1, .i32⟩
  | .hbm, ⟨22, _⟩ => ⟨S3200000x1, .i1⟩
  | .hbm, ⟨23, _⟩ => ⟨S1x1, .i32⟩
  | .hbm, ⟨24, _⟩ => ⟨S3200000x1, .i32⟩
  | .hbm, ⟨25, _⟩ => ⟨S3200000x1, .i1⟩
  | .hbm, ⟨26, _⟩ => ⟨S3200000x1, .i1⟩
  | .hbm, ⟨27, _⟩ => ⟨S_, .i1⟩
  | .hbm, ⟨28, _⟩ => ⟨S3200000, .i1⟩
  | .hbm, ⟨29, _⟩ => ⟨S3200000x16, .f32⟩
  | .hbm, ⟨30, _⟩ => ⟨S3200000x16, .i1⟩
  | .hbm, ⟨31, _⟩ => ⟨S_, .f32⟩
  | .hbm, ⟨32, _⟩ => ⟨S3200000x16, .f32⟩
  | .hbm, ⟨33, _⟩ => ⟨S3200000x16, .f32⟩
  | .hbm, ⟨34, _⟩ => ⟨S_, .f32⟩
  | .hbm, ⟨35, _⟩ => ⟨S100000x16, .f32⟩
  | .hbm, ⟨36, _⟩ => ⟨S3200000x1, .i32⟩
  | .hbm, ⟨37, _⟩ => ⟨S100000x16, .f32⟩
  | .hbm, ⟨38, _⟩ => ⟨S1x16, .f32⟩
  | .hbm, ⟨39, _⟩ => ⟨S100000x16, .f32⟩
  | .hbm, ⟨40, _⟩ => ⟨S100000x16, .f32⟩
  | .hbm, ⟨41, _⟩ => ⟨S_, .f32⟩
  | .hbm, ⟨42, _⟩ => ⟨S100000x16, .f32⟩
  | .hbm, ⟨43, _⟩ => ⟨S100000x16, .f32⟩
  | .hbm, ⟨44, _⟩ => ⟨S100000x7, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S1, .i32⟩
  | .hbm, ⟨54, _⟩ => ⟨S_, .i32⟩
  | .hbm, ⟨55, _⟩ => ⟨S3200000x1, .i32⟩
  | .hbm, ⟨56, _⟩ => ⟨S3200000x1, .i1⟩
  | .hbm, ⟨57, _⟩ => ⟨S1x1, .i32⟩
  | .hbm, ⟨58, _⟩ => ⟨S3200000x1, .i32⟩
  | .hbm, ⟨59, _⟩ => ⟨S3200000x1, .i1⟩
  | .hbm, ⟨60, _⟩ => ⟨S3200000x1, .i1⟩
  | .hbm, ⟨61, _⟩ => ⟨S_, .i1⟩
  | .hbm, ⟨62, _⟩ => ⟨S3200000, .i1⟩
  | .hbm, ⟨63, _⟩ => ⟨S3200000x7, .f32⟩
  | .hbm, ⟨64, _⟩ => ⟨S3200000x7, .i1⟩
  | .hbm, ⟨65, _⟩ => ⟨S_, .f32⟩
  | .hbm, ⟨66, _⟩ => ⟨S3200000x7, .f32⟩
  | .hbm, ⟨67, _⟩ => ⟨S3200000x7, .f32⟩
  | .hbm, ⟨68, _⟩ => ⟨S_, .f32⟩
  | .hbm, ⟨69, _⟩ => ⟨S100000x7, .f32⟩
  | .hbm, ⟨70, _⟩ => ⟨S3200000x1, .i32⟩
  | .hbm, ⟨71, _⟩ => ⟨S100000x7, .f32⟩
  | .hbm, ⟨72, _⟩ => ⟨S1x7, .f32⟩
  | .hbm, ⟨73, _⟩ => ⟨S100000x7, .f32⟩
  | .hbm, ⟨74, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call1_cst : Ref sig .tc := ⟨.hbm, 41, rfl⟩
abbrev main_call1_v0 : Ref sig .tc := ⟨.hbm, 42, rfl⟩
abbrev main_v12 : Ref sig .tc := ⟨.hbm, 43, rfl⟩
abbrev main_v13 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_call2_cst : Ref sig .tc := ⟨.hbm, 65, rfl⟩
abbrev main_call2_v15 : Ref sig .tc := ⟨.hbm, 66, rfl⟩
abbrev main_v14 : Ref sig .tc := ⟨.hbm, 67, rfl⟩
abbrev main_cst_0 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000_S3200000x7_0 : S3200000.BroadcastsInDim S3200000x7 (![0] : Fin 1 → Fin S3200000x7.rank)
  bcast_S_S3200000x7 : S_.BroadcastsInDim S3200000x7 (![] : Fin 0 → Fin S3200000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.KernelRun.lean ====
/-
  The idealized kernel's run with its RESULT read as well as its arguments.

  The program is nine segments: four stretches of host operations and four tiled regions. The launch theorem for
  such a chain ends with every unscoped buffer of a core at the last boundary's contents; reading that at the result
  buffer and at the six argument buffers gives the run below: every weakly fair execution terminates without a
  fault, the result buffer holds the last region's array as the chain of boundaries leaves it, and the arguments
  are as launched.
-/
import proofs.«156630_j22986664968500_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and each argument as launched. -/
theorem run : θ_run defs (onTc (τ := τ) (main (F := F))) ⟨m, fun _ => 0, ρ⟩ (fun r => ∀ c : Dev nD,
      r.2.mem ((c.tc : Thread nD τ).loc main_v17) = W9 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v17 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.Agg.lean ====
/-
  The neighbour aggregation, named once.

  Both programs aggregate with the same chain of host operations. From the 2×E edge table, row 0 is the source
  vector and row 1 the target vector. To gather the rows of a node array named by the sources, an index below zero
  is wrapped once by adding the number of nodes, the rows are gathered at the wrapped indices, and a row whose
  wrapped index is still outside 0 … 99999 is replaced by the fill value. To sum, the gathered rows are added into
  the rows of a zero array named by the targets. These are kept as opaque functions of the node array and the edge
  vectors: the two programs apply them to values that are proved equal, and nothing here looks inside a gather or
  a scatter.
-/
import proofs.«156630_j22986664968500_1_alg».proof.Proof.Gen.KernelIdeal

noncomputable section

namespace Cert.KernelIdeal.Agg

open Cert.KernelIdeal Idealize.ShloMosaic Idealize.ShloMosaic.TcCoe
open Cert.KernelIdeal.Facts₀

variable {F : FTy → Type} [FloatOps F]

/-- Row 0 of the edge table: the edges' sources. -/
def sources (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- Row 1 of the edge table: the edges' targets. -/
def targets (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- An index vector with the indices below zero moved up by the number of nodes, as a column. -/
def wrapped (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- Which wrapped indices lie in 0 … 99999. -/
def inRange (ix : (⟨S3200000x1, .i32⟩ : BufTy).Contents (Elt F)) : (⟨S3200000, .i1⟩ : BufTy).Contents (Elt F) :=
  Host.reduce IntOp.andi
    (andi (cmpi .sge ix (broadcastInDim S3200000x1 ![] bcast_S_S3200000x1 (constantI S_ 32 0#32)))
      (cmpi .sle ix (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The rows of a 16-column node array named by an index vector (the fill value where the index is out of range). -/
def take16 (H : (⟨S100000x16, .f32⟩ : BufTy).Contents (Elt F)) (s : (⟨S3200000, .i32⟩ : BufTy).Contents (Elt F)) : (⟨S3200000x16, .f32⟩ : BufTy).Contents (Elt F) :=
  select (broadcastInDim S3200000x16 ![0] bcast_S3200000_S3200000x16_0 (inRange (wrapped s)))
    (Host.gather gather_S100000x16_S3200000x1_S3200000x16_1_0_n_n_0_1_116 H (wrapped s))
    (broadcastInDim S3200000x16 ![] bcast_S_S3200000x16 (constant S_ .f32 0x7FC00000#32))

/-- The rows of a 7-column node array named by an index vector. -/
def take7 (H : (⟨S100000x7, .f32⟩ : BufTy).Contents (Elt F)) (s : (⟨S3200000, .i32⟩ : BufTy).Contents (Elt F)) : (⟨S3200000x7, .f32⟩ : BufTy).Contents (Elt F) :=
  select (broadcastInDim S3200000x7 ![0] bcast_S3200000_S3200000x7_0 (inRange (wrapped s)))
    (Host.gather gather_S100000x7_S3200000x1_S3200000x7_1_0_n_n_0_1_17 H (wrapped s))
    (broadcastInDim S3200000x7 ![] bcast_S_S3200000x7 (constant S_ .f32 0x7FC00000#32))

/-- Edge rows of 16 columns added into the node rows named by the targets, from zero. -/
def sum16 (d : (⟨S3200000, .i32⟩ : BufTy).Contents (Elt F)) (U : (⟨S3200000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 d) U

/-- Edge rows of 7 columns added into the node rows named by the targets, from zero. -/
def sum7 (d : (⟨S3200000, .i32⟩ : BufTy).Contents (Elt F)) (U : (⟨S3200000x7, .f32⟩ : BufTy).Contents (Elt F)) : (⟨S100000x7, .f32⟩ : BufTy).Contents (Elt F) :=
  Host.scatterAdd scatter_S100000x7_S3200000x1_S3200000x7_1_0_0_1
    (broadcastInDim S100000x7 ![] bcast_S_S100000x7 (constant S_ .f32 0x00000000#32))
    (broadcastInDim S3200000x1 ![0] bcast_S3200000_S3200000x1_0 d) U

/-- One layer's aggregation of a 16-column node array over the edge table. -/
def agg16 (H : (⟨S100000x16, .f32⟩ : BufTy).Contents (Elt F)) (e : (⟨S2x3200000, .i32⟩ : BufTy).Contents (Elt F)) : (⟨S100000x16, .f32⟩ : BufTy).Contents (Elt F) :=
  sum16 (targets e) (take16 H (sources e))

/-- One layer's aggregation of a 7-column node array over the edge table. -/
def agg7 (H : (⟨S100000x7, .f32⟩ : BufTy).Contents (Elt F)) (e : (⟨S2x3200000, .i32⟩ : BufTy).Contents (Elt F)) : (⟨S100000x7, .f32⟩ : BufTy).Contents (Elt F) :=
  sum7 (targets e) (take7 H (sources e))

end Cert.KernelIdeal.Agg

end
-- ==== Proof.LibCastBack.lean ====
/-
  A value carried along an equation of types and back is the value.
-/

namespace Cert.LibCastBack

/-- Transport along `h : α = β` followed by transport along any `h' : β = α` is the identity. -/
theorem cast_cast_id {α β : Type} (h : α = β) (h' : β = α) (v : α) : cast h' (cast h v) = v := by
  subst h; rfl

end Cert.LibCastBack
-- ==== Proof.KernelHost.lean ====
/-
  The idealized kernel's host stretches, read one at a time.

  Between its four tiled regions the program runs host operations: first the two rows of the edge table are cut out
  as the source and target vectors; after the first product the rows named by the sources are gathered and then
  added into the rows named by the targets, and the first bias vector is laid out as a one-row array; after the
  second product the same with seven columns and the second bias vector. Each stretch is read here over ANY contents
  of the buffers it starts from: what it leaves in the buffers the next region reads is the aggregation's named
  function of what it found, and it leaves every buffer it does not write as it was.
-/
import proofs.«156630_j22986664968500_1_alg».proof.Proof.Gen.KernelIdeal.Launch
import proofs.«156630_j22986664968500_1_alg».proof.Proof.Agg
import proofs.«156630_j22986664968500_1_alg».proof.Proof.LibCastBack
import Idealize.ShloMosaic.Lib.StableHlo.Run
import Idealize.ShloMosaic.Lib.ValueLayout

set_option maxRecDepth 16384

noncomputable section

namespace Cert.KernelIdeal.HostPart

open Cert.KernelIdeal Cert.KernelIdeal.Gen Cert.KernelIdeal.Agg
open Idealize.ShloMosaic Idealize.ShloMosaic.TcCoe Idealize.SL.Sem Idealize.ShloMosaic.StableHlo Idealize.ShloMosaic.ValueIdx

variable {F : FTy → Type} [FloatOps F]
variable (V : Valuation τ sig (Elt F))

-- a gather, a scatter and a reduction are searches and folds over their operands' elements: nothing below looks inside
attribute [local irreducible] Host.reduce Host.gather Host.scatterAdd

/-! ## The first stretch: the edge table's two rows -/

theorem src_eq : after hostOps0 V (Proc.devRef .tc main_v1) = sources (V (Proc.devRef .tc main_arg1)) := by
  after_results; rfl
theorem dst_eq : after hostOps0 V (Proc.devRef .tc main_v3) = targets (V (Proc.devRef .tc main_arg1)) := by
  after_results; rfl
theorem keep0 (b : Ref sig .tc) (h0 : b ≠ main_v0) (h1 : b ≠ main_v1) (h2 : b ≠ main_v2) (h3 : b ≠ main_v3) :
    after hostOps0 V (Proc.devRef .tc b) = V (Proc.devRef .tc b) :=
  after_of_forall_not_mem _ _ (List.forall_iff_forall_mem.mp (by
    simp only [hostOps0, List.Forall, unary_writes, reshape_writes, Finset.mem_singleton]
    exact ⟨devRef_ne_of_ne h0, devRef_ne_of_ne h1, devRef_ne_of_ne h2, devRef_ne_of_ne h3⟩))

/-! ## After the first product: gather by the sources, add by the targets, lay out the bias -/

set_option maxHeartbeats 1000000 in
theorem take16_eq : after hostOps1 V (Proc.devRef .tc main_v5) = take16 (V (Proc.devRef .tc main_v4)) (V (Proc.devRef .tc main_v1)) := by
  after_results_simp
  simp only [Cert.LibCastBack.cast_cast_id]
  unfold take16 inRange wrapped
  rfl

theorem sum16_eq : after hostOps1_1 V (Proc.devRef .tc main_v8) = sum16 (V (Proc.devRef .tc main_v3)) (V (Proc.devRef .tc main_v5)) := by
  after_results; rfl
theorem row16_eq : after hostOps1_1 V (Proc.devRef .tc main_v9) = shapeCast S1x16 (V (Proc.devRef .tc main_arg3)) Facts₀.shapeCasts_S16_S1x16 := by
  after_results; rfl

/-! ## After the second product: the same with seven columns -/

set_option maxHeartbeats 1000000 in
theorem take7_eq : after hostOps3 V (Proc.devRef .tc main_v12) = take7 (V (Proc.devRef .tc main_v11)) (V (Proc.devRef .tc main_v1)) := by
  after_results_simp
  simp only [Cert.LibCastBack.cast_cast_id]
  unfold take7 inRange wrapped
  rfl

theorem sum7_eq : after hostOps3_1 V (Proc.devRef .tc main_v15) = sum7 (V (Proc.devRef .tc main_v3)) (V (Proc.devRef .tc main_v12)) := by
  after_results; rfl
theorem row7_eq : after hostOps3_1 V (Proc.devRef .tc main_v16) = shapeCast S1x7 (V (Proc.devRef .tc main_arg5)) Facts₀.shapeCasts_S7_S1x7 := by
  after_results; rfl

/-! ## What a stretch does not write, it keeps -/

theorem keep1_v1 : after hostOps1 V (Proc.devRef .tc main_v1) = V (Proc.devRef .tc main_v1) := by after_results
theorem keep1_v3 : after hostOps1 V (Proc.devRef .tc main_v3) = V (Proc.devRef .tc main_v3) := by after_results
theorem keep1_arg3 : after hostOps1 V (Proc.devRef .tc main_arg3) = V (Proc.devRef .tc main_arg3) := by after_results
theorem keep1_arg4 : after hostOps1 V (Proc.devRef .tc main_arg4) = V (Proc.devRef .tc main_arg4) := by after_results
theorem keep1_arg5 : after hostOps1 V (Proc.devRef .tc main_arg5) = V (Proc.devRef .tc main_arg5) := by after_results
theorem keep11_v1 : after hostOps1_1 V (Proc.devRef .tc main_v1) = V (Proc.devRef .tc main_v1) := by after_results
theorem keep11_v3 : after hostOps1_1 V (Proc.devRef .tc main_v3) = V (Proc.devRef .tc main_v3) := by after_results
theorem keep11_arg4 : after hostOps1_1 V (Proc.devRef .tc main_arg4) = V (Proc.devRef .tc main_arg4) := by after_results
theorem keep11_arg5 : after hostOps1_1 V (Proc.devRef .tc main_arg5) = V (Proc.devRef .tc main_arg5) := by after_results
theorem keep3_v3 : after hostOps3 V (Proc.devRef .tc main_v3) = V (Proc.devRef .tc main_v3) := by after_results
theorem keep3_arg5 : after hostOps3 V (Proc.devRef .tc main_arg5) = V (Proc.devRef .tc main_arg5) := by after_results

/-! ## A bias vector laid out as one row, read back -/

/-- Row 0 of a length-16 vector laid out as a 1×16 array is the vector. -/
theorem row16_read {α : Type} (b : S16.Idx → α) :
    (fun d : S16.Idx => shapeCast S1x16 b Facts₀.shapeCasts_S16_S1x16 (ix2 (0 : Fin 1) (d 0))) = b :=
  funext fun d => (shapeCast_a_1a_apply b _ 0 (d 0)).trans (congrArg b (eq_ix1 d).symm)

/-- Row 0 of a length-7 vector laid out as a 1×7 array is the vector. -/
theorem row7_read {α : Type} (b : S7.Idx → α) :
    (fun d : S7.Idx => shapeCast S1x7 b Facts₀.shapeCasts_S7_S1x7 (ix2 (0 : Fin 1) (d 0))) = b :=
  funext fun d => (shapeCast_a_1a_apply b _ 0 (d 0)).trans (congrArg b (eq_ix1 d).symm)

end Cert.KernelIdeal.HostPart

end
-- ==== Proof.Spec.lean ====
/-
  The four dense stages of a two-layer graph convolution, each as ONE function of whole arrays, index by index,
  on the extended reals.

  * `dense A W`  — the matrix product: entry (i, j) is the sum over k of A(i, k) · W(k, j);
  * `biasRelu A b` — entry (i, j) is max (A(i, j) + b(j)) 0: a bias row added to every node, then the rectifier;
  * `bias A b`   — entry (i, j) is A(i, j) + b(j).

  The neighbour aggregation between them (gather the rows named by the edges' sources, add them into the rows named
  by the edges' targets) is the same chain of host operations in both programs and is never opened.
-/
import Idealize.ShloMosaic.Lib.ValueIdx
import Idealize.ShloMosaic.PureOps.Ideal.Laws

noncomputable section

namespace Cert.GcnSpec

open Idealize.ShloMosaic Idealize.ShloMosaic.ValueIdx

/-- The matrix product of an `M×K` array and a `K×N` array at entry `i`: the sum over the inner index of the
    products along row `i 0` of the left and column `i 1` of the right. -/
def dense {M K N : Nat} (A : (⟨2, ![M, K]⟩ : Shape).Idx → EReal) (W : (⟨2, ![K, N]⟩ : Shape).Idx → EReal) :
    (⟨2, ![M, N]⟩ : Shape).Idx → EReal :=
  fun i => ∑ k : Fin K, A (ix2 (n0 := M) (n1 := K) (i 0) k) * W (ix2 (n0 := K) (n1 := N) k (i 1))

theorem dense_ix2 {M K N : Nat} (A : (⟨2, ![M, K]⟩ : Shape).Idx → EReal) (W : (⟨2, ![K, N]⟩ : Shape).Idx → EReal)
    (p : Fin M) (q : Fin N) : dense A W (ix2 p q) = ∑ k : Fin K, A (ix2 p k) * W (ix2 k q) := rfl

/-- A bias vector added along the rows, then the rectifier `max · 0`. -/
def biasRelu {M N : Nat} (A : (⟨2, ![M, N]⟩ : Shape).Idx → EReal) (b : (⟨1, ![N]⟩ : Shape).Idx → EReal) :
    (⟨2, ![M, N]⟩ : Shape).Idx → EReal :=
  fun i => max (A i + b (ix1 (n := N) (i 1))) 0

/-- A bias vector added along the rows. -/
def bias {M N : Nat} (A : (⟨2, ![M, N]⟩ : Shape).Idx → EReal) (b : (⟨1, ![N]⟩ : Shape).Idx → EReal) :
    (⟨2, ![M, N]⟩ : Shape).Idx → EReal :=
  fun i => A i + b (ix1 (n := N) (i 1))

end Cert.GcnSpec

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.Dense1.lean ====
/-
  The first dense layer's tiles. The node axis is cut into 25 tiles of 4000 rows; at tile `t` the kernel multiplies
  rows 4000·t … 4000·t + 3999 of the features (all 512 columns) by the whole 512×16 weight matrix into a zero
  accumulator, and writes the 4000×16 product back to the same rows of the result. At the extended reals the
  conversion to the narrower float format is the identity and the product into zero is the plain sum, so entry
  (p, q) of tile `t` is the sum over k of x(4000·t + p, k) · W(k, q): entry (4000·t + p, q) of the whole product.
  The tiles fill the result, so the array the region leaves is the whole product.
-/
import proofs.«156630_j22986664968500_1_alg».proof.Proof.Gen.KernelIdeal.Frame
import proofs.«156630_j22986664968500_1_alg».proof.Proof.Spec
import proofs.«156630_j22986664968500_1_alg».proof.Proof.LibPlainDot
import Idealize.ShloMosaic.Lib.Pipeline.Value
import Idealize.ShloMosaic.Lib.ValueLayout

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile's product at entry (p, q): the sum over the 512 inner positions. -/
theorem pay_apply (x0 : Vec Ideal S4000x512 .f32) (x1 : Vec Ideal S512x16 .f32) (p : Fin 4000) (q : Fin 16) :
    k0_pay1 x0 x1 (ix2 p q) = ∑ k : Fin 512, x0 (ix2 p k) * x1 (ix2 k q) := by
  unfold k0_pay1
  refine (Ideal.matmul_constant_zero_apply _ none _ _ _).trans ?_
  exact Cert.LibPlainDot.sum_plain (M := 4000) (K := 512) (N := 16) dot_S4000x512_S512x16_S4000x16_1_0_0_1_n_n
    rfl rfl rfl rfl rfl rfl _ _ p q

/-- A tile of rows `r·4000 …` of `X` against the whole of `Wt` is the same rows of the whole product. -/
theorem tile (X : S100000x512.Idx → EReal) (Wt : S512x16.Idx → EReal)
    (x0 : Vec Ideal S4000x512 .f32) (x1 : Vec Ideal S512x16 .f32) (r : Nat) (hr : r ≤ 24)
    (h0 : ∀ (p : Fin 4000) (k : Fin 512), x0 (ix2 p k) = X (ix2 ⟨r * 4000 + p.val, by omega⟩ k))
    (h1 : ∀ (k : Fin 512) (q : Fin 16), x1 (ix2 k q) = Wt (ix2 k q))
    (j : S4000x16.Idx) (i : S100000x16.Idx) (hi0 : (i 0).val = r * 4000 + (j 0).val) (hi1 : (i 1).val = (j 1).val) :
    k0_pay1 x0 x1 j = dense (M := 100000) (K := 512) (N := 16) X Wt i := by
  obtain ⟨p, q, rfl⟩ : ∃ (p : Fin 4000) (q : Fin 16), j = ix2 p q := ⟨j 0, j 1, eq_ix2 j⟩
  have hp : r * 4000 + p.val < 100000 := by have := p.isLt; omega
  have ei : i = ix2 (n0 := 100000) (n1 := 16) ⟨r * 4000 + p.val, hp⟩ q := by
    refine (eq_ix2 i).trans ?_
    refine congrArg₂ ix2 (Fin.ext hi0) (Fin.ext hi1)
  rw [ei, pay_apply, dense_ix2]
  exact Finset.sum_congr rfl fun k _ => by rw [h0 p k, h1 k q]

/-- The printed index maps over the 25 tiles: the feature window moves with the result window along the rows and
    stays at column block 0; the weight window never moves. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row tile is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is tile `t` of the whole product of the arrays the region finds. -/
theorem flushed_eq (c : Dev nD) (t : Fin cfg0.N) :
    (dat0 V c).flushed 2 t = ((cfg0.win 2).blk t).view.read (Elt Ideal)
      (dense (M := 100000) (K := 512) (N := 16) (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  obtain ⟨e0, e1, e2, e3, e4, e5⟩ := idx_facts t
  funext j
  show k0_pay1 (iblk0 V c 0 t) (iblk0 V c 1 t) j
    = dense (M := 100000) (K := 512) (N := 16) (V c main_arg0) (V c main_arg2) (((cfg0.win 2).blk t).view.emb j)
  refine tile (V c main_arg0) (V c main_arg2) (iblk0 V c 0 t) (iblk0 V c 1 t) (win0_2.index t (0 : Fin 2)) e5 ?_ ?_ j _ ?_ ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_2.index t (0 : Fin 2) * 4000 + p.val; omega
    | ⟨1, _⟩ => show win0_0.index t (1 : Fin 2) * 512 + 1 * k.val = k.val; omega
  · intro k q
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 16 + 1 * q.val = q.val; omega
  · show win0_2.index t (0 : Fin 2) * 4000 + 1 * (j 0).val = win0_2.index t (0 : Fin 2) * 4000 + (j 0).val; omega
  · show win0_2.index t (1 : Fin 2) * 16 + 1 * (j 1).val = (j 1).val; omega

/-- An index of the result is in point `t`'s tile iff each coordinate is in the tile's range on its axis. -/
theorem mem_blk (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_v4).slice (win0_2.rect t)).set ↔ _
  rw [View.set_slice_whole, Rect.mem_set_unit]
  exact Iff.rfl

/-- The tiles fill the result: row `r` lies in tile `r / 4000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- The array the region leaves: the whole product of the features and the weights it found. -/
theorem final (c : Dev nD) :
    (dat0 V c).arrAt 2 cfg0.N = dense (M := 100000) (K := 512) (N := 16) (V c main_arg0) (V c main_arg2) :=
  (dat0 V c).arrAt_eq_of_cover 2 _ (fun t _ => flushed_eq V c t) cover

end Cert.KernelIdeal.Dense1

end
-- ==== Proof.Dense2.lean ====
/-
  The second dense layer's tiles: rows 4000·t … 4000·t + 3999 of the hidden features (16 columns) times the whole
  16×7 weight matrix into a zero accumulator, written back to the same rows of the result. As for the first
  layer, entry (p, q) of tile `t` is entry (4000·t + p, q) of the whole product, and the 25 tiles fill the result.
-/
import proofs.«156630_j22986664968500_1_alg».proof.Proof.Gen.KernelIdeal.Frame
import proofs.«156630_j22986664968500_1_alg».proof.Proof.Spec
import proofs.«156630_j22986664968500_1_alg».proof.Proof.LibPlainDot
import Idealize.ShloMosaic.Lib.Pipeline.Value
import Idealize.ShloMosaic.Lib.ValueLayout

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile's product at entry (p, q): the sum over the 16 inner positions (the cast of the tile to its own shape
    is the identity). -/
theorem pay_apply (x0 : Vec Ideal S4000x16 .f32) (x1 : Vec Ideal S16x7 .f32) (p : Fin 4000) (q : Fin 7) :
    k2_pay1 x0 x1 (ix2 p q) = ∑ k : Fin 16, x0 (ix2 p k) * x1 (ix2 k q) := by
  unfold k2_pay1
  refine (Ideal.matmul_constant_zero_apply _ none _ _ _).trans ?_
  refine (Cert.LibPlainDot.sum_plain (M := 4000) (K := 16) (N := 7) dot_S4000x16_S16x7_S4000x7_1_0_0_1_n_n
    rfl rfl rfl rfl rfl rfl _ _ p q).trans ?_
  refine Finset.sum_congr rfl fun k _ => ?_
  exact congrArg (· * x1 (ix2 k q)) (congrFun (shapeCast_self x0 _) (ix2 p k))

/-- A tile of rows `r·4000 …` of `X` against the whole of `Wt` is the same rows of the whole product. -/
theorem tile (X : S100000x16.Idx → EReal) (Wt : S16x7.Idx → EReal)
    (x0 : Vec Ideal S4000x16 .f32) (x1 : Vec Ideal S16x7 .f32) (r : Nat) (hr : r ≤ 24)
    (h0 : ∀ (p : Fin 4000) (k : Fin 16), x0 (ix2 p k) = X (ix2 ⟨r * 4000 + p.val, by omega⟩ k))
    (h1 : ∀ (k : Fin 16) (q : Fin 7), x1 (ix2 k q) = Wt (ix2 k q))
    (j : S4000x7.Idx) (i : S100000x7.Idx) (hi0 : (i 0).val = r * 4000 + (j 0).val) (hi1 : (i 1).val = (j 1).val) :
    k2_pay1 x0 x1 j = dense (M := 100000) (K := 16) (N := 7) X Wt i := by
  obtain ⟨p, q, rfl⟩ : ∃ (p : Fin 4000) (q : Fin 7), j = ix2 p q := ⟨j 0, j 1, eq_ix2 j⟩
  have hp : r * 4000 + p.val < 100000 := by have := p.isLt; omega
  have ei : i = ix2 (n0 := 100000) (n1 := 7) ⟨r * 4000 + p.val, hp⟩ q := by
    refine (eq_ix2 i).trans ?_
    refine congrArg₂ ix2 (Fin.ext hi0) (Fin.ext hi1)
  rw [ei, pay_apply, dense_ix2]
  exact Finset.sum_congr rfl fun k _ => by rw [h0 p k, h1 k q]

/-- The printed index maps over the 25 tiles: the hidden-feature window moves with the result window along the
    rows; the weight window never moves. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every row tile is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- What point `t` writes back is tile `t` of the whole product of the arrays the region finds. -/
theorem flushed_eq (c : Dev nD) (t : Fin cfg2.N) :
    (dat2 V c).flushed 2 t = ((cfg2.win 2).blk t).view.read (Elt Ideal)
      (dense (M := 100000) (K := 16) (N := 7) (V c main_v10) (V c main_arg4)) := by
  show (cfg2.win 2).cut (grid2.coords t) ((dat2 V c).after 2 t) = _
  rw [after2_2]
  unfold out2_2
  rw [View.canon_unit_zero hz]
  simp only [View.ld_unit_zero (S := S4000x16) hz, View.ld_unit_zero (S := S16x7) hz]
  obtain ⟨e0, e1, e2, e3, e4, e5⟩ := idx_facts t
  funext j
  show k2_pay1 (iblk2 V c 0 t) (iblk2 V c 1 t) j
    = dense (M := 100000) (K := 16) (N := 7) (V c main_v10) (V c main_arg4) (((cfg2.win 2).blk t).view.emb j)
  refine tile (V c main_v10) (V c main_arg4) (iblk2 V c 0 t) (iblk2 V c 1 t) (win2_2.index t (0 : Fin 2)) e5 ?_ ?_ j _ ?_ ?_
  · intro p k
    show V c main_v10 (((cfg2.win 0).blk t).view.emb (ix2 p k)) = _
    refine congrArg (V c main_v10) (funext fun a => Fin.ext ?_)
    match a with
    | ⟨0, _⟩ => show win2_0.index t (0 : Fin 2) * 4000 + 1 * p.val = win2_2.index t (0 : Fin 2) * 4000 + p.val; omega
    | ⟨1, _⟩ => show win2_0.index t (1 : Fin 2) * 16 + 1 * k.val = k.val; omega
  · intro k q
    show V c main_arg4 (((cfg2.win 1).blk t).view.emb (ix2 k q)) = _
    refine congrArg (V c main_arg4) (funext fun a => Fin.ext ?_)
    match a with
    | ⟨0, _⟩ => show win2_1.index t (0 : Fin 2) * 16 + 1 * k.val = k.val; omega
    | ⟨1, _⟩ => show win2_1.index t (1 : Fin 2) * 7 + 1 * q.val = q.val; omega
  · show win2_2.index t (0 : Fin 2) * 4000 + 1 * (j 0).val = win2_2.index t (0 : Fin 2) * 4000 + (j 0).val; omega
  · show win2_2.index t (1 : Fin 2) * 7 + 1 * (j 1).val = (j 1).val; omega

/-- An index of the result is in point `t`'s tile iff each coordinate is in the tile's range on its axis. -/
theorem mem_blk (t : Fin cfg2.N) (i : S100000x7.Idx) :
    i ∈ ((cfg2.win 2).blk t).view.set ↔ ∀ a : Fin 2, win2_2.index t a * S4000x7.size a ≤ (i a).val
      ∧ (i a).val < win2_2.index t a * S4000x7.size a + S4000x7.size a := by
  show i ∈ ((View.whole main_v11).slice (win2_2.rect t)).set ↔ _
  rw [View.set_slice_whole, Rect.mem_set_unit]
  exact Iff.rfl

/-- The tiles fill the result: row `r` lies in tile `r / 4000`. -/
theorem cover (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  obtain ⟨t, ht⟩ := idx_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 7 ≤ (i 1).val ∧ (i 1).val < win2_2.index t (1 : Fin 2) * 7 + 7; omega

/-- The array the region leaves: the whole product of the hidden features and the weights it found. -/
theorem final (c : Dev nD) :
    (dat2 V c).arrAt 2 cfg2.N = dense (M := 100000) (K := 16) (N := 7) (V c main_v10) (V c main_arg4) :=
  (dat2 V c).arrAt_eq_of_cover 2 _ (fun t _ => flushed_eq V c t) cover

end Cert.KernelIdeal.Dense2

end
-- ==== Proof.BiasRelu.lean ====
/-
  The first layer's bias pass. At tile `t` the kernel reads rows 4000·t … 4000·t + 3999 of the aggregated
  features and the one bias row, adds the bias row to every row of the tile and takes the maximum with zero. Entry
  (p, q) of tile `t` is max (agg(4000·t + p, q) + b(0, q)) 0, the same entry of the whole rectified array; the 25
  tiles fill it.
-/
import proofs.«156630_j22986664968500_1_alg».proof.Proof.Gen.KernelIdeal.Frame
import proofs.«156630_j22986664968500_1_alg».proof.Proof.Spec
import Idealize.ShloMosaic.Lib.Pipeline.Value
import Idealize.ShloMosaic.Lib.ValueLayout

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile at entry (p, q): the aggregated entry plus the bias row's entry q, rectified (the casts of a
    block to its own shape are the identity; the one-row block is read at row 0 whatever p). -/
theorem pay_apply (x0 : Vec Ideal S1x16 .f32) (x4 : Vec Ideal S4000x16 .f32) (p : Fin 4000) (q : Fin 16) :
    k1_pay1 x0 x4 (ix2 p q) = max (x4 (ix2 p q) + x0 (ix2 (0 : Fin 1) q)) 0 := by
  unfold k1_pay1
  show max (shapeCast _ x4 _ (ix2 p q) + broadcastTo _ (shapeCast _ (shapeCast _ x0 _) _) _ (ix2 p q)) (Ideal.ofBits .f32 0x00000000#32) = _
  rw [shapeCast_self, shapeCast_self, shapeCast_self, broadcastTo_1b_ab_apply, Ideal.ofBits_zero_f32]

/-- A tile of rows `r·4000 …` of `A` with the one row `B` is the same rows of the whole array. -/
theorem tile (A : S100000x16.Idx → EReal) (B : S1x16.Idx → EReal)
    (x0 : Vec Ideal S4000x16 .f32) (x1 : Vec Ideal S1x16 .f32) (r : Nat) (hr : r ≤ 24)
    (h0 : ∀ (p : Fin 4000) (q : Fin 16), x0 (ix2 p q) = A (ix2 ⟨r * 4000 + p.val, by omega⟩ q))
    (h1 : ∀ (q : Fin 16), x1 (ix2 (0 : Fin 1) q) = B (ix2 (0 : Fin 1) q))
    (j : S4000x16.Idx) (i : S100000x16.Idx) (hi0 : (i 0).val = r * 4000 + (j 0).val) (hi1 : (i 1).val = (j 1).val) :
    k1_pay1 x1 x0 j = biasRelu (M := 100000) (N := 16) A (fun d => B (ix2 (0 : Fin 1) (d 0))) i := by
  obtain ⟨p, q, rfl⟩ : ∃ (p : Fin 4000) (q : Fin 16), j = ix2 p q := ⟨j 0, j 1, eq_ix2 j⟩
  have hp : r * 4000 + p.val < 100000 := by have := p.isLt; omega
  have ei : i = ix2 (n0 := 100000) (n1 := 16) ⟨r * 4000 + p.val, hp⟩ q := by
    refine (eq_ix2 i).trans ?_
    refine congrArg₂ ix2 (Fin.ext hi0) (Fin.ext hi1)
  rw [ei, pay_apply, h0 p q, h1 q]
  rfl

/-- The printed index maps over the 25 tiles: the aggregate's window moves with the result window along the rows;
    the bias row's window never moves. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every row tile is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What point `t` writes back is tile `t` of the whole array. -/
theorem flushed_eq (c : Dev nD) (t : Fin cfg1.N) :
    (dat1 V c).flushed 2 t = ((cfg1.win 2).blk t).view.read (Elt Ideal)
      (biasRelu (M := 100000) (N := 16) (V c main_v8) (fun d => V c main_v9 (ix2 (0 : Fin 1) (d 0)))) := by
  show (cfg1.win 2).cut (grid1.coords t) ((dat1 V c).after 2 t) = _
  rw [after1_2]
  unfold out1_2
  rw [View.canon_unit_zero hz]
  simp only [View.ld_unit_zero (S := S4000x16) hz, View.ld_unit_zero (S := S1x16) hz]
  obtain ⟨e0, e1, e2, e3, e4, e5⟩ := idx_facts t
  funext j
  show k1_pay1 (iblk1 V c 1 t) (iblk1 V c 0 t) j
    = biasRelu (M := 100000) (N := 16) (V c main_v8) (fun d => V c main_v9 (ix2 (0 : Fin 1) (d 0))) (((cfg1.win 2).blk t).view.emb j)
  refine tile (V c main_v8) (V c main_v9) (iblk1 V c 0 t) (iblk1 V c 1 t) (win1_2.index t (0 : Fin 2)) e5 ?_ ?_ j _ ?_ ?_
  · intro p q
    show V c main_v8 (((cfg1.win 0).blk t).view.emb (ix2 p q)) = _
    refine congrArg (V c main_v8) (funext fun a => Fin.ext ?_)
    match a with
    | ⟨0, _⟩ => show win1_0.index t (0 : Fin 2) * 4000 + 1 * p.val = win1_2.index t (0 : Fin 2) * 4000 + p.val; omega
    | ⟨1, _⟩ => show win1_0.index t (1 : Fin 2) * 16 + 1 * q.val = q.val; omega
  · intro q
    show V c main_v9 (((cfg1.win 1).blk t).view.emb (ix2 (0 : Fin 1) q)) = _
    refine congrArg (V c main_v9) (funext fun a => Fin.ext ?_)
    match a with
    | ⟨0, _⟩ => show win1_1.index t (0 : Fin 2) * 1 + 1 * 0 = 0; omega
    | ⟨1, _⟩ => show win1_1.index t (1 : Fin 2) * 16 + 1 * q.val = q.val; omega
  · show win1_2.index t (0 : Fin 2) * 4000 + 1 * (j 0).val = win1_2.index t (0 : Fin 2) * 4000 + (j 0).val; omega
  · show win1_2.index t (1 : Fin 2) * 16 + 1 * (j 1).val = (j 1).val; omega

/-- An index of the result is in point `t`'s tile iff each coordinate is in the tile's range on its axis. -/
theorem mem_blk (t : Fin cfg1.N) (i : S100000x16.Idx) :
    i ∈ ((cfg1.win 2).blk t).view.set ↔ ∀ a : Fin 2, win1_2.index t a * S4000x16.size a ≤ (i a).val
      ∧ (i a).val < win1_2.index t a * S4000x16.size a + S4000x16.size a := by
  show i ∈ ((View.whole main_v10).slice (win1_2.rect t)).set ↔ _
  rw [View.set_slice_whole, Rect.mem_set_unit]
  exact Iff.rfl

/-- The tiles fill the result: row `r` lies in tile `r / 4000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 16 ≤ (i 1).val ∧ (i 1).val < win1_2.index t (1 : Fin 2) * 16 + 16; omega

/-- The array the region leaves, as one function of the aggregate and the bias row it found. -/
theorem final (c : Dev nD) :
    (dat1 V c).arrAt 2 cfg1.N
      = biasRelu (M := 100000) (N := 16) (V c main_v8) (fun d => V c main_v9 (ix2 (0 : Fin 1) (d 0))) :=
  (dat1 V c).arrAt_eq_of_cover 2 _ (fun t _ => flushed_eq V c t) cover

end Cert.KernelIdeal.BiasRelu

end
-- ==== Proof.BiasOut.lean ====
/-
  The second layer's bias pass. At tile `t` the kernel reads rows 4000·t … 4000·t + 3999 of the aggregated
  class scores and the one bias row and adds the bias row to every row of the tile. Entry (p, q) of tile `t` is
  agg(4000·t + p, q) + b(0, q), the same entry of the whole array; the 25 tiles fill it.
-/
import proofs.«156630_j22986664968500_1_alg».proof.Proof.Gen.KernelIdeal.Frame
import proofs.«156630_j22986664968500_1_alg».proof.Proof.Spec
import Idealize.ShloMosaic.Lib.Pipeline.Value
import Idealize.ShloMosaic.Lib.ValueLayout

set_option maxRecDepth 16384

noncomputable section

namespace Cert.KernelIdeal.BiasOut

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile at entry (p, q): the aggregated entry plus the bias row's entry q (the casts of a
    block to its own shape are the identity; the one-row block is read at row 0 whatever p). -/
theorem pay_apply (x0 : Vec Ideal S1x7 .f32) (x4 : Vec Ideal S4000x7 .f32) (p : Fin 4000) (q : Fin 7) :
    k3_pay1 x0 x4 (ix2 p q) = x4 (ix2 p q) + x0 (ix2 (0 : Fin 1) q) := by
  unfold k3_pay1
  show shapeCast _ x4 _ (ix2 p q) + broadcastTo _ (shapeCast _ (shapeCast _ x0 _) _) _ (ix2 p q) = _
  rw [shapeCast_self, shapeCast_self, shapeCast_self, broadcastTo_1b_ab_apply]

/-- A tile of rows `r·4000 …` of `A` with the one row `B` is the same rows of the whole array. -/
theorem tile (A : S100000x7.Idx → EReal) (B : S1x7.Idx → EReal)
    (x0 : Vec Ideal S4000x7 .f32) (x1 : Vec Ideal S1x7 .f32) (r : Nat) (hr : r ≤ 24)
    (h0 : ∀ (p : Fin 4000) (q : Fin 7), x0 (ix2 p q) = A (ix2 ⟨r * 4000 + p.val, by omega⟩ q))
    (h1 : ∀ (q : Fin 7), x1 (ix2 (0 : Fin 1) q) = B (ix2 (0 : Fin 1) q))
    (j : S4000x7.Idx) (i : S100000x7.Idx) (hi0 : (i 0).val = r * 4000 + (j 0).val) (hi1 : (i 1).val = (j 1).val) :
    k3_pay1 x1 x0 j = bias (M := 100000) (N := 7) A (fun d => B (ix2 (0 : Fin 1) (d 0))) i := by
  obtain ⟨p, q, rfl⟩ : ∃ (p : Fin 4000) (q : Fin 7), j = ix2 p q := ⟨j 0, j 1, eq_ix2 j⟩
  have hp : r * 4000 + p.val < 100000 := by have := p.isLt; omega
  have ei : i = ix2 (n0 := 100000) (n1 := 7) ⟨r * 4000 + p.val, hp⟩ q := by
    refine (eq_ix2 i).trans ?_
    refine congrArg₂ ix2 (Fin.ext hi0) (Fin.ext hi1)
  rw [ei, pay_apply, h0 p q, h1 q]
  rfl

/-- The printed index maps over the 25 tiles: the aggregate's window moves with the result window along the rows;
    the bias row's window never moves. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 24 :=
  (by decide +kernel : ∀ t : Fin grid3.N, _)

/-- Every row tile is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- What point `t` writes back is tile `t` of the whole array. -/
theorem flushed_eq (c : Dev nD) (t : Fin cfg3.N) :
    (dat3 V c).flushed 2 t = ((cfg3.win 2).blk t).view.read (Elt Ideal)
      (bias (M := 100000) (N := 7) (V c main_v15) (fun d => V c main_v16 (ix2 (0 : Fin 1) (d 0)))) := by
  show (cfg3.win 2).cut (grid3.coords t) ((dat3 V c).after 2 t) = _
  rw [after3_2]
  unfold out3_2
  rw [View.canon_unit_zero hz]
  simp only [View.ld_unit_zero (S := S4000x7) hz, View.ld_unit_zero (S := S1x7) hz]
  obtain ⟨e0, e1, e2, e3, e4, e5⟩ := idx_facts t
  funext j
  show k3_pay1 (iblk3 V c 1 t) (iblk3 V c 0 t) j
    = bias (M := 100000) (N := 7) (V c main_v15) (fun d => V c main_v16 (ix2 (0 : Fin 1) (d 0))) (((cfg3.win 2).blk t).view.emb j)
  refine tile (V c main_v15) (V c main_v16) (iblk3 V c 0 t) (iblk3 V c 1 t) (win3_2.index t (0 : Fin 2)) e5 ?_ ?_ j _ ?_ ?_
  · intro p q
    show V c main_v15 (((cfg3.win 0).blk t).view.emb (ix2 p q)) = _
    refine congrArg (V c main_v15) (funext fun a => Fin.ext ?_)
    match a with
    | ⟨0, _⟩ => show win3_0.index t (0 : Fin 2) * 4000 + 1 * p.val = win3_2.index t (0 : Fin 2) * 4000 + p.val; omega
    | ⟨1, _⟩ => show win3_0.index t (1 : Fin 2) * 7 + 1 * q.val = q.val; omega
  · intro q
    show V c main_v16 (((cfg3.win 1).blk t).view.emb (ix2 (0 : Fin 1) q)) = _
    refine congrArg (V c main_v16) (funext fun a => Fin.ext ?_)
    match a with
    | ⟨0, _⟩ => show win3_1.index t (0 : Fin 2) * 1 + 1 * 0 = 0; omega
    | ⟨1, _⟩ => show win3_1.index t (1 : Fin 2) * 7 + 1 * q.val = q.val; omega
  · show win3_2.index t (0 : Fin 2) * 4000 + 1 * (j 0).val = win3_2.index t (0 : Fin 2) * 4000 + (j 0).val; omega
  · show win3_2.index t (1 : Fin 2) * 7 + 1 * (j 1).val = (j 1).val; omega

/-- An index of the result is in point `t`'s tile iff each coordinate is in the tile's range on its axis. -/
theorem mem_blk (t : Fin cfg3.N) (i : S100000x7.Idx) :
    i ∈ ((cfg3.win 2).blk t).view.set ↔ ∀ a : Fin 2, win3_2.index t a * S4000x7.size a ≤ (i a).val
      ∧ (i a).val < win3_2.index t a * S4000x7.size a + S4000x7.size a := by
  show i ∈ ((View.whole main_v17).slice (win3_2.rect t)).set ↔ _
  rw [View.set_slice_whole, Rect.mem_set_unit]
  exact Iff.rfl

/-- The tiles fill the result: row `r` lies in tile `r / 4000`. -/
theorem cover (i : S100000x7.Idx) :
    ∃ t : Fin cfg3.N, (cfg3.win 2).flush t = true ∧ i ∈ ((cfg3.win 2).blk t).view.set := by
  have hi0 : (i 0).val < 100000 := (i 0).isLt
  have hi1 : (i 1).val < 7 := (i 1).isLt
  obtain ⟨t, ht⟩ := idx_onto ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 7 ≤ (i 1).val ∧ (i 1).val < win3_2.index t (1 : Fin 2) * 7 + 7; omega

/-- The array the region leaves, as one function of the aggregate and the bias row it found. -/
theorem final (c : Dev nD) :
    (dat3 V c).arrAt 2 cfg3.N
      = bias (M := 100000) (N := 7) (V c main_v15) (fun d => V c main_v16 (ix2 (0 : Fin 1) (d 0))) :=
  (dat3 V c).arrAt_eq_of_cover 2 _ (fun t _ => flushed_eq V c t) cover

end Cert.KernelIdeal.BiasOut

end
-- ==== Proof.Out.lean ====
/-
  The network's result as one function of its six arguments, on the extended reals:

      out = bias (agg₇ (dense (biasRelu (agg₁₆ (dense x W₁) e) b₁) W₂) e) b₂

  — a matrix product, the neighbour aggregation over the edge table `e`, the bias and the rectifier; then a second
  product, the aggregation again, and the second bias. Both programs are shown to end with their result buffer at
  this function of their arguments.
-/
import proofs.«156630_j22986664968500_1_alg».proof.Proof.Spec
import proofs.«156630_j22986664968500_1_alg».proof.Proof.Agg

noncomputable section

namespace Cert.GcnSpec

open Cert.KernelIdeal Cert.KernelIdeal.Agg Idealize.ShloMosaic Idealize.ShloMosaic.TcCoe

/-- The two-layer network as one function of the features, the edge table, and the two layers' weights and biases. -/
def out (x : (⟨S100000x512, .f32⟩ : BufTy).Contents (Elt Ideal)) (e : (⟨S2x3200000, .i32⟩ : BufTy).Contents (Elt Ideal))
    (w1 : (⟨S512x16, .f32⟩ : BufTy).Contents (Elt Ideal)) (b1 : (⟨S16, .f32⟩ : BufTy).Contents (Elt Ideal))
    (w2 : (⟨S16x7, .f32⟩ : BufTy).Contents (Elt Ideal)) (b2 : (⟨S7, .f32⟩ : BufTy).Contents (Elt Ideal)) : (⟨S100000x7, .f32⟩ : BufTy).Contents (Elt Ideal) :=
  bias (M := 100000) (N := 7)
    (agg7 (F := Ideal) (dense (M := 100000) (K := 16) (N := 7)
      (biasRelu (M := 100000) (N := 16) (agg16 (F := Ideal) (dense (M := 100000) (K := 512) (N := 16) x w1) e) b1) w2) e) b2

end Cert.GcnSpec

end
-- ==== Proof.KernelValue.lean ====
/-
  The idealized kernel's result as one function of its arguments.

  The run ends with the result buffer at the last of nine boundary contents. Walking the boundaries forward from
  the launch: the first stretch cuts the source and target vectors out of the edge table; the first region leaves
  the whole product of the features and the first weights; the next two stretches gather its rows by the sources,
  add them by the targets and lay out the first bias; the second region adds the bias and rectifies; the third
  region multiplies by the second weights; two more stretches aggregate again and lay out the second bias; the last
  region adds it. A buffer that a stretch or a region does not write keeps its contents, which is how the edge
  vectors, the weights and the biases reach the places they are read.
-/
import proofs.«156630_j22986664968500_1_alg».proof.Proof.Gen.KernelIdeal.Frame
import proofs.«156630_j22986664968500_1_alg».proof.Proof.KernelHost
import proofs.«156630_j22986664968500_1_alg».proof.Proof.Dense1
import proofs.«156630_j22986664968500_1_alg».proof.Proof.Dense2
import proofs.«156630_j22986664968500_1_alg».proof.Proof.BiasRelu
import proofs.«156630_j22986664968500_1_alg».proof.Proof.BiasOut
import proofs.«156630_j22986664968500_1_alg».proof.Proof.Out

set_option maxRecDepth 16384

noncomputable section

namespace Cert.KernelIdeal.Whole

open Cert.KernelIdeal Cert.KernelIdeal.Gen Cert.KernelIdeal.Agg Cert.KernelIdeal.HostPart Cert.GcnSpec
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The last boundary's contents at the result buffer: the network's function of the launch contents of the
    arguments. -/
theorem result_eq : W9 m ρ c (Proc.devRef .tc main_v17)
    = out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  unfold out agg7 agg16
  -- boundary 1: after the edge table's rows are cut out
  have a0 : W1 m ρ c (Proc.devRef .tc main_arg0) = m ((c : Thread nD τ).loc main_arg0) :=
    keep0 (W0 m ρ c) main_arg0 (by decide) (by decide) (by decide) (by decide)
  have a2 : W1 m ρ c (Proc.devRef .tc main_arg2) = m ((c : Thread nD τ).loc main_arg2) :=
    keep0 (W0 m ρ c) main_arg2 (by decide) (by decide) (by decide) (by decide)
  have a3 : W1 m ρ c (Proc.devRef .tc main_arg3) = m ((c : Thread nD τ).loc main_arg3) :=
    keep0 (W0 m ρ c) main_arg3 (by decide) (by decide) (by decide) (by decide)
  have a4 : W1 m ρ c (Proc.devRef .tc main_arg4) = m ((c : Thread nD τ).loc main_arg4) :=
    keep0 (W0 m ρ c) main_arg4 (by decide) (by decide) (by decide) (by decide)
  have a5 : W1 m ρ c (Proc.devRef .tc main_arg5) = m ((c : Thread nD τ).loc main_arg5) :=
    keep0 (W0 m ρ c) main_arg5 (by decide) (by decide) (by decide) (by decide)
  have s1 : W1 m ρ c (Proc.devRef .tc main_v1) = sources (m ((c : Thread nD τ).loc main_arg1)) := src_eq (W0 m ρ c)
  have t1 : W1 m ρ c (Proc.devRef .tc main_v3) = targets (m ((c : Thread nD τ).loc main_arg1)) := dst_eq (W0 m ρ c)
  -- boundary 2: after the first product
  have h4 : W2 m ρ c (Proc.devRef .tc main_v4)
      = dense (M := 100000) (K := 512) (N := 16) (m ((c : Thread nD τ).loc main_arg0)) (m ((c : Thread nD τ).loc main_arg2)) :=
    (W2_arr m ρ c 2).trans ((Dense1.final (V1 m ρ) c).trans (congrArg₂ (dense (M := 100000) (K := 512) (N := 16)) a0 a2))
  have s2 := (W2_of_ne m ρ c main_v1 (by decide)).trans s1
  have t2 := (W2_of_ne m ρ c main_v3 (by decide)).trans t1
  have b3 := (W2_of_ne m ρ c main_arg3 (by decide)).trans a3
  have b4 := (W2_of_ne m ρ c main_arg4 (by decide)).trans a4
  have b5 := (W2_of_ne m ρ c main_arg5 (by decide)).trans a5
  -- boundary 3: the rows gathered by the sources
  have u3 := (take16_eq (W2 m ρ c)).trans (congrArg₂ (take16 (F := Ideal)) h4 s2)
  have s3 := (keep1_v1 (W2 m ρ c)).trans s2
  have t3 := (keep1_v3 (W2 m ρ c)).trans t2
  have c3 := (keep1_arg3 (W2 m ρ c)).trans b3
  have c4 := (keep1_arg4 (W2 m ρ c)).trans b4
  have c5 := (keep1_arg5 (W2 m ρ c)).trans b5
  -- boundary 4: added by the targets; the first bias laid out
  have g4 := (sum16_eq (W3 m ρ c)).trans (congrArg₂ (sum16 (F := Ideal)) t3 u3)
  have r4 := (row16_eq (W3 m ρ c)).trans (congrArg (fun b => shapeCast S1x16 b Facts₀.shapeCasts_S16_S1x16) c3)
  have s4 := (keep11_v1 (W3 m ρ c)).trans s3
  have t4 := (keep11_v3 (W3 m ρ c)).trans t3
  have d4 := (keep11_arg4 (W3 m ρ c)).trans c4
  have d5 := (keep11_arg5 (W3 m ρ c)).trans c5
  -- boundary 5: bias and rectifier
  have h10 := (W5_arr m ρ c 2).trans ((BiasRelu.final (V4 m ρ) c).trans
    (congrArg₂ (biasRelu (M := 100000) (N := 16)) g4
      ((congrArg (fun (B : S1x16.Idx → EReal) => fun d : S16.Idx => B (ix2 (0 : Fin 1) (d 0))) r4).trans
        (row16_read (m ((c : Thread nD τ).loc main_arg3))))))
  have s5 := (W5_of_ne m ρ c main_v1 (by decide)).trans s4
  have t5 := (W5_of_ne m ρ c main_v3 (by decide)).trans t4
  have e4 := (W5_of_ne m ρ c main_arg4 (by decide)).trans d4
  have e5 := (W5_of_ne m ρ c main_arg5 (by decide)).trans d5
  -- boundary 6: the second product
  have h11 := (W6_arr m ρ c 2).trans ((Dense2.final (V5 m ρ) c).trans
    (congrArg₂ (dense (M := 100000) (K := 16) (N := 7)) h10 e4))
  have s6 := (W6_of_ne m ρ c main_v1 (by decide)).trans s5
  have t6 := (W6_of_ne m ρ c main_v3 (by decide)).trans t5
  have f5 := (W6_of_ne m ρ c main_arg5 (by decide)).trans e5
  -- boundary 7: gathered by the sources
  have u7 := (take7_eq (W6 m ρ c)).trans (congrArg₂ (take7 (F := Ideal)) h11 s6)
  have t7 := (keep3_v3 (W6 m ρ c)).trans t6
  have g5 := (keep3_arg5 (W6 m ρ c)).trans f5
  -- boundary 8: added by the targets; the second bias laid out
  have g8 := (sum7_eq (W7 m ρ c)).trans (congrArg₂ (sum7 (F := Ideal)) t7 u7)
  have r8 := (row7_eq (W7 m ρ c)).trans (congrArg (fun b => shapeCast S1x7 b Facts₀.shapeCasts_S7_S1x7) g5)
  -- boundary 9: the second bias added
  exact (W9_arr m ρ c 2).trans ((BiasOut.final (V8 m ρ) c).trans
    (congrArg₂ (bias (M := 100000) (N := 7)) g8
      ((congrArg (fun (B : S1x7.Idx → EReal) => fun d : S7.Idx => B (ix2 (0 : Fin 1) (d 0))) r8).trans
        (row7_read (m ((c : Thread nD τ).loc main_arg5))))))

end Cert.KernelIdeal.Whole

end
-- ==== Proof.RefRun.lean ====
/-
  The reference program as a straight line of host operations, and its run.

  The reference computes, with plain array operations: the two rows of the edge table as source and target
  vectors; the first dense layer as one matrix product; the rows named by the sources gathered (an index below zero
  wraps once, one still out of range reads the fill value); those rows added into the rows named by the targets,
  from zero; the bias broadcast over the nodes and added; the rectifier as a maximum with zero; then the second
  layer in the same way without the rectifier. The helper functions it calls are inlined where they are called, so
  the program is one list of 69 operations, and every weakly fair execution ends with each buffer at the
  operations' fold over the launch contents.
-/
import proofs.«156630_j22986664968500_1_alg».proof.Proof.Gen.ReferenceIdeal
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's 69 operations in order: five of its own, the first gather's twenty-three, seven of its own, the
    rectifier's three, the second product, the second gather's twenty-three, seven of its own. -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    TRef.nullary main_call0.c (constantI S_ 32 0#32),
    TRef.unary main_call0.c main_call0.v0 (broadcastInDim S3200000 ![] bcast_S_S3200000),
    TRef.binary (.of main_v1 : TRef sig ⟨S3200000, .i32⟩) main_call0.v0 main_call0.v1 (cmpi .slt),
    TRef.nullary main_call0.c_0 (constantI S_ 32 100000#32),
    TRef.unary main_call0.c_0 main_call0.v2 (broadcastInDim S3200000 ![] bcast_S_S3200000),
    TRef.binary (.of main_v1 : TRef sig ⟨S3200000, .i32⟩) main_call0.v2 main_call0.v3 addi,
    TRef.ternary main_call0.v1 main_call0.v3 (.of main_v1 : TRef sig ⟨S3200000, .i32⟩) main_call0.call0.v0 select,
    TRef.unary main_call0.call0.v0 main_call0.v5 (broadcastInDim S3200000x1 ![0] bcast_S3200000_S3200000x1_0),
    TRef.nullary main_call0.c_1 (constantI S1 32 99999#32),
    TRef.nullary main_call0.c_2 (constantI S_ 32 0#32),
    TRef.unary main_call0.c_2 main_call0.v6 (broadcastInDim S3200000x1 ![] bcast_S_S3200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S3200000x1 ![0, 1] bcast_S1x1_S3200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S3200000x1_S3200000_d1 h_S_),
    TRef.binary (.of main_v4 : TRef sig ⟨S100000x16, .f32⟩) main_call0.v5 main_call0.v13 (fun x i => Host.gather gather_S100000x16_S3200000x1_S3200000x16_1_0_n_n_0_1_116 x i),
    TRef.unary main_call0.v12 main_call0.v14 (broadcastInDim S3200000x16 ![0] bcast_S3200000_S3200000x16_0),
    TRef.nullary main_call0.cst (constant S_ .f32 0x7FC00000#32),
    TRef.unary main_call0.cst main_call0.v15 (broadcastInDim S3200000x16 ![] bcast_S_S3200000x16),
    TRef.ternary main_call0.v14 main_call0.v13 main_call0.v15 main_call0.v16 select,
    nullary main_cst (constant S_ .f32 0x00000000#32),
    unary main_cst main_v6 (broadcastInDim S100000x16 ![] bcast_S_S100000x16 : (⟨S_, .f32⟩ : BufTy).Contents (Elt F) → (⟨S100000x16, .f32⟩ : BufTy).Contents (Elt F)),
    unary main_v3 main_v7 (broadcastInDim S3200000x1 ![0] bcast_S3200000_S3200000x1_0 : (⟨S3200000, .i32⟩ : BufTy).Contents (Elt F) → (⟨S3200000x1, .i32⟩ : BufTy).Contents (Elt F)),
    ternary main_v6 main_v7 main_v5 main_v8 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    unary main_arg3 main_v9 (broadcastInDim S1x16 ![1] bcast_S16_S1x16_1 : (⟨S16, .f32⟩ : BufTy).Contents (Elt F) → (⟨S1x16, .f32⟩ : BufTy).Contents (Elt F)),
    unary main_v9 main_v10 (broadcastInDim S100000x16 ![0, 1] bcast_S1x16_S100000x16_0_1 : (⟨S1x16, .f32⟩ : BufTy).Contents (Elt F) → (⟨S100000x16, .f32⟩ : BufTy).Contents (Elt F)),
    binary main_v8 main_v10 main_v11 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (.of main_v11 : TRef sig ⟨S100000x16, .f32⟩) main_call1.v0 main_call1.v1 maximumf,
    binary main_v12 main_arg4 main_v13 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    TRef.nullary main_call2.c (constantI S_ 32 0#32),
    TRef.unary main_call2.c main_call2.v0 (broadcastInDim S3200000 ![] bcast_S_S3200000),
    TRef.binary (.of main_v1 : TRef sig ⟨S3200000, .i32⟩) main_call2.v0 main_call2.v1 (cmpi .slt),
    TRef.nullary main_call2.c_0 (constantI S_ 32 100000#32),
    TRef.unary main_call2.c_0 main_call2.v2 (broadcastInDim S3200000 ![] bcast_S_S3200000),
    TRef.binary (.of main_v1 : TRef sig ⟨S3200000, .i32⟩) main_call2.v2 main_call2.v3 addi,
    TRef.ternary main_call2.v1 main_call2.v3 (.of main_v1 : TRef sig ⟨S3200000, .i32⟩) main_call2.call0.v0 select,
    TRef.unary main_call2.call0.v0 main_call2.v5 (broadcastInDim S3200000x1 ![0] bcast_S3200000_S3200000x1_0),
    TRef.nullary main_call2.c_1 (constantI S1 32 99999#32),
    TRef.nullary main_call2.c_2 (constantI S_ 32 0#32),
    TRef.unary main_call2.c_2 main_call2.v6 (broadcastInDim S3200000x1 ![] bcast_S_S3200000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S3200000x1 ![0, 1] bcast_S1x1_S3200000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S3200000x1_S3200000_d1 h_S_),
    TRef.binary (.of main_v13 : TRef sig ⟨S100000x7, .f32⟩) main_call2.v5 main_call2.v13 (fun x i => Host.gather gather_S100000x7_S3200000x1_S3200000x7_1_0_n_n_0_1_17 x i),
    TRef.unary main_call2.v12 main_call2.v14 (broadcastInDim S3200000x7 ![0] bcast_S3200000_S3200000x7_0),
    TRef.nullary main_call2.cst (constant S_ .f32 0x7FC00000#32),
    TRef.unary main_call2.cst main_call2.v15 (broadcastInDim S3200000x7 ![] bcast_S_S3200000x7),
    TRef.ternary main_call2.v14 main_call2.v13 main_call2.v15 main_call2.v16 select,
    nullary main_cst_0 (constant S_ .f32 0x00000000#32),
    unary main_cst_0 main_v15 (broadcastInDim S100000x7 ![] bcast_S_S100000x7 : (⟨S_, .f32⟩ : BufTy).Contents (Elt F) → (⟨S100000x7, .f32⟩ : BufTy).Contents (Elt F)),
    unary main_v3 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x7_S3200000x1_S3200000x7_1_0_0_1 x i u) : (⟨S100000x7, .f32⟩ : BufTy).Contents (Elt F) → (⟨S3200000x1, .i32⟩ : BufTy).Contents (Elt F) → (⟨S3200000x7, .f32⟩ : BufTy).Contents (Elt F) → (⟨S100000x7, .f32⟩ : BufTy).Contents (Elt F)),
    unary main_arg5 main_v18 (broadcastInDim S1x7 ![1] bcast_S7_S1x7_1 : (⟨S7, .f32⟩ : BufTy).Contents (Elt F) → (⟨S1x7, .f32⟩ : BufTy).Contents (Elt F)),
    unary main_v18 main_v19 (broadcastInDim S100000x7 ![0, 1] bcast_S1x7_S100000x7_0_1 : (⟨S1x7, .f32⟩ : BufTy).Contents (Elt F) → (⟨S100000x7, .f32⟩ : BufTy).Contents (Elt F)),
    binary main_v17 main_v19 main_v20 (addf : (⟨S100000x7, .f32⟩ : BufTy).Contents (Elt F) → (⟨S100000x7, .f32⟩ : BufTy).Contents (Elt F) → (⟨S100000x7, .f32⟩ : BufTy).Contents (Elt F)) ]

/-- The program is that straight line: with the helper functions' bodies unfolded at their calls, both sides are the
    same chain of steps, by unfolding definitions. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub ..,
    nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..,
    nullary_bufs_sub .., unary_bufs_sub .., unary_bufs_sub .., ternary_bufs_sub .., unary_bufs_sub .., unary_bufs_sub .., binary_bufs_sub ..,
    nullary_bufs_sub .., unary_bufs_sub .., binary_bufs_sub ..,
    binary_bufs_sub ..,
    nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..,
    nullary_bufs_sub .., unary_bufs_sub .., unary_bufs_sub .., ternary_bufs_sub .., unary_bufs_sub .., unary_bufs_sub .., binary_bufs_sub ..⟩

/-- From any memory with zero counters every weakly fair execution of the reference terminates, and every final
    state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.LibAfterAppend.lean ====
/-
  The contents after two lines of host operations run one after the other: the second line's fold over the first's.
-/
import Idealize.ShloMosaic.Lib.StableHlo.Run

namespace Cert.LibAfterAppend

open Idealize.ShloMosaic Idealize.ShloMosaic.StableHlo

/-- Folding a concatenated line of operations over some contents is folding the second part over the first part's
    result. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

end Cert.LibAfterAppend
-- ==== Proof.RefSegs.lean ====
/-
  The reference's line of operations in eight stretches, each read over any contents it starts from.

  The stretches: the edge table's two rows; the first product; the first gather (wrap the indices, test their range,
  gather, replace the rows out of range by the fill value); the scatter-add from zero, the bias broadcast over the
  nodes and added; the maximum with a zero array; the second product; the second gather; the second scatter-add and
  bias. A stretch leaves every buffer it does not write as it found it.
-/
import proofs.«156630_j22986664968500_1_alg».proof.Proof.RefRun
import proofs.«156630_j22986664968500_1_alg».proof.Proof.Agg
import proofs.«156630_j22986664968500_1_alg».proof.Proof.LibCastBack
import proofs.«156630_j22986664968500_1_alg».proof.Proof.LibAfterAppend

set_option maxRecDepth 16384

noncomputable section

namespace Cert.ReferenceIdeal.Stretch

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

/-! ## The stretches -/

abbrev edges : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000 ]

abbrev prod1 : List (HloOp τ sig (Elt F)) :=
  [ binary main_arg0 main_arg2 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

abbrev gather1 : List (HloOp τ sig (Elt F)) :=
  [
    TRef.nullary main_call0.c (constantI S_ 32 0#32),
    TRef.unary main_call0.c main_call0.v0 (broadcastInDim S3200000 ![] bcast_S_S3200000),
    TRef.binary (.of main_v1 : TRef sig ⟨S3200000, .i32⟩) main_call0.v0 main_call0.v1 (cmpi .slt),
    TRef.nullary main_call0.c_0 (constantI S_ 32 100000#32),
    TRef.unary main_call0.c_0 main_call0.v2 (broadcastInDim S3200000 ![] bcast_S_S3200000),
    TRef.binary (.of main_v1 : TRef sig ⟨S3200000, .i32⟩) main_call0.v2 main_call0.v3 addi,
    TRef.ternary main_call0.v1 main_call0.v3 (.of main_v1 : TRef sig ⟨S3200000, .i32⟩) main_call0.call0.v0 select,
    TRef.unary main_call0.call0.v0 main_call0.v5 (broadcastInDim S3200000x1 ![0] bcast_S3200000_S3200000x1_0),
    TRef.nullary main_call0.c_1 (constantI S1 32 99999#32),
    TRef.nullary main_call0.c_2 (constantI S_ 32 0#32),
    TRef.unary main_call0.c_2 main_call0.v6 (broadcastInDim S3200000x1 ![] bcast_S_S3200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S3200000x1 ![0, 1] bcast_S1x1_S3200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S3200000x1_S3200000_d1 h_S_),
    TRef.binary (.of main_v4 : TRef sig ⟨S100000x16, .f32⟩) main_call0.v5 main_call0.v13 (fun x i => Host.gather gather_S100000x16_S3200000x1_S3200000x16_1_0_n_n_0_1_116 x i),
    TRef.unary main_call0.v12 main_call0.v14 (broadcastInDim S3200000x16 ![0] bcast_S3200000_S3200000x16_0),
    TRef.nullary main_call0.cst (constant S_ .f32 0x7FC00000#32),
    TRef.unary main_call0.cst main_call0.v15 (broadcastInDim S3200000x16 ![] bcast_S_S3200000x16),
    TRef.ternary main_call0.v14 main_call0.v13 main_call0.v15 main_call0.v16 select ]

abbrev sum1 : List (HloOp τ sig (Elt F)) :=
  [ nullary main_cst (constant S_ .f32 0x00000000#32),
    unary main_cst main_v6 (broadcastInDim S100000x16 ![] bcast_S_S100000x16 : (⟨S_, .f32⟩ : BufTy).Contents (Elt F) → (⟨S100000x16, .f32⟩ : BufTy).Contents (Elt F)),
    unary main_v3 main_v7 (broadcastInDim S3200000x1 ![0] bcast_S3200000_S3200000x1_0 : (⟨S3200000, .i32⟩ : BufTy).Contents (Elt F) → (⟨S3200000x1, .i32⟩ : BufTy).Contents (Elt F)),
    ternary main_v6 main_v7 main_v5 main_v8 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    unary main_arg3 main_v9 (broadcastInDim S1x16 ![1] bcast_S16_S1x16_1 : (⟨S16, .f32⟩ : BufTy).Contents (Elt F) → (⟨S1x16, .f32⟩ : BufTy).Contents (Elt F)),
    unary main_v9 main_v10 (broadcastInDim S100000x16 ![0, 1] bcast_S1x16_S100000x16_0_1 : (⟨S1x16, .f32⟩ : BufTy).Contents (Elt F) → (⟨S100000x16, .f32⟩ : BufTy).Contents (Elt F)),
    binary main_v8 main_v10 main_v11 (addf : (⟨S100000x16, .f32⟩ : BufTy).Contents (Elt F) → (⟨S100000x16, .f32⟩ : BufTy).Contents (Elt F) → (⟨S100000x16, .f32⟩ : BufTy).Contents (Elt F)) ]

abbrev rect : List (HloOp τ sig (Elt F)) :=
  [ TRef.nullary main_call1.cst (constant S_ .f32 0x00000000#32),
    TRef.unary main_call1.cst main_call1.v0 (broadcastInDim S100000x16 ![] bcast_S_S100000x16),
    TRef.binary (.of main_v11 : TRef sig ⟨S100000x16, .f32⟩) main_call1.v0 main_call1.v1 maximumf ]

abbrev prod2 : List (HloOp τ sig (Elt F)) :=
  [ binary main_v12 main_arg4 main_v13 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)) ]

abbrev gather2 : List (HloOp τ sig (Elt F)) :=
  [
    TRef.nullary main_call2.c (constantI S_ 32 0#32),
    TRef.unary main_call2.c main_call2.v0 (broadcastInDim S3200000 ![] bcast_S_S3200000),
    TRef.binary (.of main_v1 : TRef sig ⟨S3200000, .i32⟩) main_call2.v0 main_call2.v1 (cmpi .slt),
    TRef.nullary main_call2.c_0 (constantI S_ 32 100000#32),
    TRef.unary main_call2.c_0 main_call2.v2 (broadcastInDim S3200000 ![] bcast_S_S3200000),
    TRef.binary (.of main_v1 : TRef sig ⟨S3200000, .i32⟩) main_call2.v2 main_call2.v3 addi,
    TRef.ternary main_call2.v1 main_call2.v3 (.of main_v1 : TRef sig ⟨S3200000, .i32⟩) main_call2.call0.v0 select,
    TRef.unary main_call2.call0.v0 main_call2.v5 (broadcastInDim S3200000x1 ![0] bcast_S3200000_S3200000x1_0),
    TRef.nullary main_call2.c_1 (constantI S1 32 99999#32),
    TRef.nullary main_call2.c_2 (constantI S_ 32 0#32),
    TRef.unary main_call2.c_2 main_call2.v6 (broadcastInDim S3200000x1 ![] bcast_S_S3200000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S3200000x1 ![0, 1] bcast_S1x1_S3200000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S3200000x1_S3200000_d1 h_S_),
    TRef.binary (.of main_v13 : TRef sig ⟨S100000x7, .f32⟩) main_call2.v5 main_call2.v13 (fun x i => Host.gather gather_S100000x7_S3200000x1_S3200000x7_1_0_n_n_0_1_17 x i),
    TRef.unary main_call2.v12 main_call2.v14 (broadcastInDim S3200000x7 ![0] bcast_S3200000_S3200000x7_0),
    TRef.nullary main_call2.cst (constant S_ .f32 0x7FC00000#32),
    TRef.unary main_call2.cst main_call2.v15 (broadcastInDim S3200000x7 ![] bcast_S_S3200000x7),
    TRef.ternary main_call2.v14 main_call2.v13 main_call2.v15 main_call2.v16 select ]

abbrev sum2 : List (HloOp τ sig (Elt F)) :=
  [ nullary main_cst_0 (constant S_ .f32 0x00000000#32),
    unary main_cst_0 main_v15 (broadcastInDim S100000x7 ![] bcast_S_S100000x7 : (⟨S_, .f32⟩ : BufTy).Contents (Elt F) → (⟨S100000x7, .f32⟩ : BufTy).Contents (Elt F)),
    unary main_v3 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x7_S3200000x1_S3200000x7_1_0_0_1 x i u) : (⟨S100000x7, .f32⟩ : BufTy).Contents (Elt F) → (⟨S3200000x1, .i32⟩ : BufTy).Contents (Elt F) → (⟨S3200000x7, .f32⟩ : BufTy).Contents (Elt F) → (⟨S100000x7, .f32⟩ : BufTy).Contents (Elt F)),
    unary main_arg5 main_v18 (broadcastInDim S1x7 ![1] bcast_S7_S1x7_1 : (⟨S7, .f32⟩ : BufTy).Contents (Elt F) → (⟨S1x7, .f32⟩ : BufTy).Contents (Elt F)),
    unary main_v18 main_v19 (broadcastInDim S100000x7 ![0, 1] bcast_S1x7_S100000x7_0_1 : (⟨S1x7, .f32⟩ : BufTy).Contents (Elt F) → (⟨S100000x7, .f32⟩ : BufTy).Contents (Elt F)),
    binary main_v17 main_v19 main_v20 (addf : (⟨S100000x7, .f32⟩ : BufTy).Contents (Elt F) → (⟨S100000x7, .f32⟩ : BufTy).Contents (Elt F) → (⟨S100000x7, .f32⟩ : BufTy).Contents (Elt F)) ]

/-- The line is the eight stretches in order. -/
theorem ops_eq : (ops : List (HloOp τ sig (Elt F)))
    = edges ++ (prod1 ++ (gather1 ++ (sum1 ++ (rect ++ (prod2 ++ (gather2 ++ sum2)))))) := rfl

/-! ## What each stretch writes, and so what it keeps -/

abbrev wEdges : List (Ref sig .tc) := [main_v0, main_v1, main_v2, main_v3]
abbrev wProd1 : List (Ref sig .tc) := [main_v4]
abbrev wGather1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
abbrev wSum1 : List (Ref sig .tc) := [main_cst, main_v6, main_v7, main_v8, main_v9, main_v10, main_v11]
abbrev wRect : List (Ref sig .tc) := [main_call1_cst, main_call1_v0, main_v12]
abbrev wProd2 : List (Ref sig .tc) := [main_v13]
abbrev wGather2 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v14]
abbrev wSum2 : List (Ref sig .tc) := [main_cst_0, main_v15, main_v16, main_v17, main_v18, main_v19, main_v20]

theorem edges_w : (edges : List (HloOp τ sig (Elt F))).Forall fun op => op.writes ⊆ (wEdges.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem prod1_w : (prod1 : List (HloOp τ sig (Elt F))).Forall fun op => op.writes ⊆ (wProd1.map (Proc.devRef (τ := τ) .tc)).toFinset := by
  simp only [List.Forall, nullary_writes, unary_writes, binary_writes, ternary_writes, reshape_writes,
    Finset.singleton_subset_iff, List.mem_toFinset]
  exact List.mem_map_of_mem (by decide)
theorem gather1_w : (gather1 : List (HloOp τ sig (Elt F))).Forall fun op => op.writes ⊆ (wGather1.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem sum1_w : (sum1 : List (HloOp τ sig (Elt F))).Forall fun op => op.writes ⊆ (wSum1.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem rect_w : (rect : List (HloOp τ sig (Elt F))).Forall fun op => op.writes ⊆ (wRect.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem prod2_w : (prod2 : List (HloOp τ sig (Elt F))).Forall fun op => op.writes ⊆ (wProd2.map (Proc.devRef (τ := τ) .tc)).toFinset := by
  simp only [List.Forall, nullary_writes, unary_writes, binary_writes, ternary_writes, reshape_writes,
    Finset.singleton_subset_iff, List.mem_toFinset]
  exact List.mem_map_of_mem (by decide)
theorem gather2_w : (gather2 : List (HloOp τ sig (Elt F))).Forall fun op => op.writes ⊆ (wGather2.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem sum2_w : (sum2 : List (HloOp τ sig (Elt F))).Forall fun op => op.writes ⊆ (wSum2.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

variable (V : Valuation τ sig (Elt F))

/-- A buffer none of the stretches writes is, after the whole line, as it was. -/
theorem keep_all (r : Ref sig .tc) (h0 : r ∉ wEdges) (h1 : r ∉ wProd1) (h2 : r ∉ wGather1) (h3 : r ∉ wSum1)
    (h4 : r ∉ wRect) (h5 : r ∉ wProd2) (h6 : r ∉ wGather2) (h7 : r ∉ wSum2) :
    after ops V (Proc.devRef .tc r) = V (Proc.devRef .tc r) := by
  rw [ops_eq]
  simp only [Cert.LibAfterAppend.after_append]
  rw [after_of_writes_sub sum2 _ sum2_w h7, after_of_writes_sub gather2 _ gather2_w h6, after_of_writes_sub prod2 _ prod2_w h5,
    after_of_writes_sub rect _ rect_w h4, after_of_writes_sub sum1 _ sum1_w h3, after_of_writes_sub gather1 _ gather1_w h2,
    after_of_writes_sub prod1 _ prod1_w h1, after_of_writes_sub edges _ edges_w h0]

/-! ## What each stretch leaves in the buffer the next one reads -/

-- a gather, a scatter and a reduction are searches and folds over their operands' elements: nothing below looks inside
attribute [local irreducible] Host.reduce Host.gather Host.scatterAdd

open Cert.KernelIdeal.Agg in
theorem src_eq : after edges V (Proc.devRef .tc main_v1) = sources (V (Proc.devRef .tc main_arg1)) := by
  after_results; rfl
open Cert.KernelIdeal.Agg in
theorem dst_eq : after edges V (Proc.devRef .tc main_v3) = targets (V (Proc.devRef .tc main_arg1)) := by
  after_results; rfl

theorem prod1_eq : after prod1 V (Proc.devRef .tc main_v4)
    = Host.dotGeneral dot_S100000x512_S512x16_S100000x16_1_0_0_1_n_n none (V (Proc.devRef .tc main_arg0)) (V (Proc.devRef .tc main_arg2)) := by
  after_results

set_option maxHeartbeats 1000000 in
open Cert.KernelIdeal.Agg in
theorem gather1_eq : after gather1 V (Proc.devRef .tc main_v5) = take16 (V (Proc.devRef .tc main_v4)) (V (Proc.devRef .tc main_v1)) := by
  after_results_simp
  simp only [Cert.LibCastBack.cast_cast_id]
  unfold take16 inRange wrapped
  rfl

open Cert.KernelIdeal.Agg in
theorem sum1_eq : after sum1 V (Proc.devRef .tc main_v11)
    = addf (sum16 (V (Proc.devRef .tc main_v3)) (V (Proc.devRef .tc main_v5)))
        (broadcastInDim S100000x16 ![0, 1] bcast_S1x16_S100000x16_0_1 (broadcastInDim S1x16 ![1] bcast_S16_S1x16_1 (V (Proc.devRef .tc main_arg3)))) := by
  after_results; rfl

theorem rect_eq : after rect V (Proc.devRef .tc main_v12)
    = maximumf (V (Proc.devRef .tc main_v11)) (broadcastInDim S100000x16 ![] bcast_S_S100000x16 (constant S_ .f32 0x00000000#32)) := by
  after_results_simp
  simp only [Cert.LibCastBack.cast_cast_id]
  rfl

theorem prod2_eq : after prod2 V (Proc.devRef .tc main_v13)
    = Host.dotGeneral dot_S100000x16_S16x7_S100000x7_1_0_0_1_n_n none (V (Proc.devRef .tc main_v12)) (V (Proc.devRef .tc main_arg4)) := by
  after_results

set_option maxHeartbeats 1000000 in
open Cert.KernelIdeal.Agg in
theorem gather2_eq : after gather2 V (Proc.devRef .tc main_v14) = take7 (V (Proc.devRef .tc main_v13)) (V (Proc.devRef .tc main_v1)) := by
  after_results_simp
  simp only [Cert.LibCastBack.cast_cast_id]
  unfold take7 inRange wrapped
  rfl

open Cert.KernelIdeal.Agg in
theorem sum2_eq : after sum2 V (Proc.devRef .tc main_v20)
    = addf (sum7 (V (Proc.devRef .tc main_v3)) (V (Proc.devRef .tc main_v14)))
        (broadcastInDim S100000x7 ![0, 1] bcast_S1x7_S100000x7_0_1 (broadcastInDim S1x7 ![1] bcast_S7_S1x7_1 (V (Proc.devRef .tc main_arg5)))) := by
  after_results; rfl

end Cert.ReferenceIdeal.Stretch

end
-- ==== Proof.RefValue.lean ====
/-
  The reference's result as the same function of its arguments.

  Read back through its eight stretches, the reference's result buffer holds: the product of the features and the
  first weights as one host contraction; the aggregation over the edge table (the same chain of gathers, selects and
  a scatter-add as in the kernel's program, so the same named function); the first bias broadcast to every node and
  added; the maximum with a zero array; the product with the second weights; the aggregation again; the second bias
  broadcast and added. Three laws join this to the specification: a host contraction of the plain form is the sum
  over the inner index at every entry; a vector broadcast to one row and then to every row, added, is the bias law;
  and the maximum with a broadcast zero is the rectifier.
-/
import proofs.«156630_j22986664968500_1_alg».proof.Proof.RefSegs
import proofs.«156630_j22986664968500_1_alg».proof.Proof.Out
import proofs.«156630_j22986664968500_1_alg».proof.Proof.LibPlainDot
import Idealize.ShloMosaic.Lib.Pipeline.Value
import Idealize.ShloMosaic.Lib.ValueLayout

set_option maxRecDepth 16384

noncomputable section

namespace Cert.ReferenceIdeal.Whole

open Cert.ReferenceIdeal Cert.ReferenceIdeal.Gen Cert.ReferenceIdeal.Line Cert.ReferenceIdeal.Stretch Cert.GcnSpec
open Idealize.ShloMosaic Idealize.ShloMosaic.TcCoe Idealize.SL.Sem Idealize.ShloMosaic.StableHlo Idealize.ShloMosaic.ValueIdx
open Cert.KernelIdeal.Agg

/-! ## The three laws -/

/-- A host contraction of an `M×K` array with a `K×N` array over the inner axis is the matrix product. -/
theorem dot1_eq (x : FVec Ideal S100000x512 .f32) (w : FVec Ideal S512x16 .f32) :
    Host.dotGeneral (F := Ideal) dot_S100000x512_S512x16_S100000x16_1_0_0_1_n_n none x w = dense (M := 100000) (K := 512) (N := 16) x w := by
  funext i
  obtain ⟨p, q, rfl⟩ : ∃ (p : Fin 100000) (q : Fin 16), i = ix2 p q := ⟨i 0, i 1, eq_ix2 i⟩
  simp only [Host.dotGeneral]
  refine (Ideal.dotGeneral_apply _ none _ _ _ _).trans ?_
  exact Cert.LibPlainDot.sum_plain (M := 100000) (K := 512) (N := 16) dot_S100000x512_S512x16_S100000x16_1_0_0_1_n_n
    rfl rfl rfl rfl rfl rfl _ _ p q

theorem dot2_eq (x : FVec Ideal S100000x16 .f32) (w : FVec Ideal S16x7 .f32) :
    Host.dotGeneral (F := Ideal) dot_S100000x16_S16x7_S100000x7_1_0_0_1_n_n none x w = dense (M := 100000) (K := 16) (N := 7) x w := by
  funext i
  obtain ⟨p, q, rfl⟩ : ∃ (p : Fin 100000) (q : Fin 7), i = ix2 p q := ⟨i 0, i 1, eq_ix2 i⟩
  simp only [Host.dotGeneral]
  refine (Ideal.dotGeneral_apply _ none _ _ _ _).trans ?_
  exact Cert.LibPlainDot.sum_plain (M := 100000) (K := 16) (N := 7) dot_S100000x16_S16x7_S100000x7_1_0_0_1_n_n
    rfl rfl rfl rfl rfl rfl _ _ p q

/-- A length-16 vector broadcast to one row and then to every node's row, read at (p, q), is its entry q. -/
theorem bcast16_apply (b : FVec Ideal S16 .f32) (p : Fin 100000) (q : Fin 16) :
    broadcastInDim S100000x16 ![0, 1] Facts₀.bcast_S1x16_S100000x16_0_1 (broadcastInDim S1x16 ![1] Facts₀.bcast_S16_S1x16_1 b) (ix2 p q)
      = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

theorem bcast7_apply (b : FVec Ideal S7 .f32) (p : Fin 100000) (q : Fin 7) :
    broadcastInDim S100000x7 ![0, 1] Facts₀.bcast_S1x7_S100000x7_0_1 (broadcastInDim S1x7 ![1] Facts₀.bcast_S7_S1x7_1 b) (ix2 p q)
      = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The bias broadcast over the nodes and added, then the maximum with a zero array: the rectified bias law. -/
theorem relu_eq (A : FVec Ideal S100000x16 .f32) (b : FVec Ideal S16 .f32) :
    maximumf (F := Ideal) (addf (F := Ideal) A (broadcastInDim S100000x16 ![0, 1] Facts₀.bcast_S1x16_S100000x16_0_1 (broadcastInDim S1x16 ![1] Facts₀.bcast_S16_S1x16_1 b)))
        (broadcastInDim S100000x16 ![] Facts₀.bcast_S_S100000x16 (constant (F := Ideal) S_ .f32 0x00000000#32))
      = biasRelu (M := 100000) (N := 16) A b := by
  funext i
  obtain ⟨p, q, rfl⟩ : ∃ (p : Fin 100000) (q : Fin 16), i = ix2 p q := ⟨i 0, i 1, eq_ix2 i⟩
  show max (A (ix2 p q) + broadcastInDim S100000x16 ![0, 1] _ (broadcastInDim S1x16 ![1] _ b) (ix2 p q))
      (broadcastInDim S100000x16 ![] _ (constant (F := Ideal) S_ .f32 0x00000000#32) (ix2 p q)) = max (A (ix2 p q) + b (ix1 q)) 0
  rw [bcast16_apply, broadcastInDim_apply _ _ _ (ix2 p q) ix0 (fun a => a.elim0), constant_apply, Ideal.ofBits_zero_f32]

/-- The bias broadcast over the nodes and added: the bias law. -/
theorem bias_eq (A : FVec Ideal S100000x7 .f32) (b : FVec Ideal S7 .f32) :
    addf (F := Ideal) A (broadcastInDim S100000x7 ![0, 1] Facts₀.bcast_S1x7_S100000x7_0_1 (broadcastInDim S1x7 ![1] Facts₀.bcast_S7_S1x7_1 b))
      = bias (M := 100000) (N := 7) A b := by
  funext i
  obtain ⟨p, q, rfl⟩ : ∃ (p : Fin 100000) (q : Fin 7), i = ix2 p q := ⟨i 0, i 1, eq_ix2 i⟩
  show A (ix2 p q) + broadcastInDim S100000x7 ![0, 1] _ (broadcastInDim S1x7 ![1] _ b) (ix2 p q) = A (ix2 p q) + b (ix1 q)
  rw [bcast7_apply]

/-! ## The walk along the stretches -/

variable (V : Valuation τ sig (Elt Ideal))

/-- The contents after each stretch. -/
abbrev U1 : Valuation τ sig (Elt Ideal) := after edges V
abbrev U2 : Valuation τ sig (Elt Ideal) := after prod1 (U1 V)
abbrev U3 : Valuation τ sig (Elt Ideal) := after gather1 (U2 V)
abbrev U4 : Valuation τ sig (Elt Ideal) := after sum1 (U3 V)
abbrev U5 : Valuation τ sig (Elt Ideal) := after rect (U4 V)
abbrev U6 : Valuation τ sig (Elt Ideal) := after prod2 (U5 V)
abbrev U7 : Valuation τ sig (Elt Ideal) := after gather2 (U6 V)
abbrev U8 : Valuation τ sig (Elt Ideal) := after sum2 (U7 V)

theorem ops_after : after ops V = U8 V := by
  rw [ops_eq]
  simp only [Cert.LibAfterAppend.after_append]

set_option maxHeartbeats 1600000 in
/-- The operations' fold at the result buffer is the network's function of the contents of the argument buffers. -/
theorem fold_eq : after ops V (Proc.devRef .tc main_v20)
    = out (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_after]
  unfold out agg7 agg16
  -- after the edge table's rows are cut out
  have a0 : U1 V (Proc.devRef .tc main_arg0) = (V (Proc.devRef .tc main_arg0)) := after_of_writes_sub edges V edges_w (by decide)
  have a2 : U1 V (Proc.devRef .tc main_arg2) = (V (Proc.devRef .tc main_arg2)) := after_of_writes_sub edges V edges_w (by decide)
  have a3 : U1 V (Proc.devRef .tc main_arg3) = (V (Proc.devRef .tc main_arg3)) := after_of_writes_sub edges V edges_w (by decide)
  have a4 : U1 V (Proc.devRef .tc main_arg4) = (V (Proc.devRef .tc main_arg4)) := after_of_writes_sub edges V edges_w (by decide)
  have a5 : U1 V (Proc.devRef .tc main_arg5) = (V (Proc.devRef .tc main_arg5)) := after_of_writes_sub edges V edges_w (by decide)
  have s1 : U1 V (Proc.devRef .tc main_v1) = sources (V (Proc.devRef .tc main_arg1)) := src_eq V
  have t1 : U1 V (Proc.devRef .tc main_v3) = targets (V (Proc.devRef .tc main_arg1)) := dst_eq V
  -- the first product
  have h4 : U2 V (Proc.devRef .tc main_v4) = dense (M := 100000) (K := 512) (N := 16) (V (Proc.devRef .tc main_arg0)) (V (Proc.devRef .tc main_arg2)) :=
    (prod1_eq (U1 V)).trans ((congrArg₂ (Host.dotGeneral (F := Ideal) dot_S100000x512_S512x16_S100000x16_1_0_0_1_n_n none) a0 a2).trans
      (dot1_eq _ _))
  have s2 := (after_of_writes_sub (r := main_v1) prod1 (U1 V) prod1_w (by decide)).trans s1
  have t2 := (after_of_writes_sub (r := main_v3) prod1 (U1 V) prod1_w (by decide)).trans t1
  have b3 := (after_of_writes_sub (r := main_arg3) prod1 (U1 V) prod1_w (by decide)).trans a3
  have b4 := (after_of_writes_sub (r := main_arg4) prod1 (U1 V) prod1_w (by decide)).trans a4
  have b5 := (after_of_writes_sub (r := main_arg5) prod1 (U1 V) prod1_w (by decide)).trans a5
  -- gathered by the sources
  have u3 := (gather1_eq (U2 V)).trans (congrArg₂ (take16 (F := Ideal)) h4 s2)
  have s3 := (after_of_writes_sub (r := main_v1) gather1 (U2 V) gather1_w (by decide)).trans s2
  have t3 := (after_of_writes_sub (r := main_v3) gather1 (U2 V) gather1_w (by decide)).trans t2
  have c3 := (after_of_writes_sub (r := main_arg3) gather1 (U2 V) gather1_w (by decide)).trans b3
  have c4 := (after_of_writes_sub (r := main_arg4) gather1 (U2 V) gather1_w (by decide)).trans b4
  have c5 := (after_of_writes_sub (r := main_arg5) gather1 (U2 V) gather1_w (by decide)).trans b5
  -- added by the targets, the bias broadcast and added
  have g4 := (sum1_eq (U3 V)).trans (congrArg₂ (fun a b => addf (F := Ideal) a b) (congrArg₂ (sum16 (F := Ideal)) t3 u3)
    (congrArg (fun b => broadcastInDim S100000x16 ![0, 1] Facts₀.bcast_S1x16_S100000x16_0_1
      (broadcastInDim S1x16 ![1] Facts₀.bcast_S16_S1x16_1 b)) c3))
  have s4 := (after_of_writes_sub (r := main_v1) sum1 (U3 V) sum1_w (by decide)).trans s3
  have t4 := (after_of_writes_sub (r := main_v3) sum1 (U3 V) sum1_w (by decide)).trans t3
  have d4 := (after_of_writes_sub (r := main_arg4) sum1 (U3 V) sum1_w (by decide)).trans c4
  have d5 := (after_of_writes_sub (r := main_arg5) sum1 (U3 V) sum1_w (by decide)).trans c5
  -- the rectifier
  have h12 := (rect_eq (U4 V)).trans ((congrArg (fun A => maximumf (F := Ideal) A
      (broadcastInDim S100000x16 ![] Facts₀.bcast_S_S100000x16 (constant (F := Ideal) S_ .f32 0x00000000#32))) g4).trans (relu_eq _ _))
  have s5 := (after_of_writes_sub (r := main_v1) rect (U4 V) rect_w (by decide)).trans s4
  have t5 := (after_of_writes_sub (r := main_v3) rect (U4 V) rect_w (by decide)).trans t4
  have e4 := (after_of_writes_sub (r := main_arg4) rect (U4 V) rect_w (by decide)).trans d4
  have e5 := (after_of_writes_sub (r := main_arg5) rect (U4 V) rect_w (by decide)).trans d5
  -- the second product
  have h13 := (prod2_eq (U5 V)).trans ((congrArg₂ (Host.dotGeneral (F := Ideal) dot_S100000x16_S16x7_S100000x7_1_0_0_1_n_n none) h12 e4).trans
      (dot2_eq _ _))
  have s6 := (after_of_writes_sub (r := main_v1) prod2 (U5 V) prod2_w (by decide)).trans s5
  have t6 := (after_of_writes_sub (r := main_v3) prod2 (U5 V) prod2_w (by decide)).trans t5
  have f5 := (after_of_writes_sub (r := main_arg5) prod2 (U5 V) prod2_w (by decide)).trans e5
  -- gathered by the sources
  have u7 := (gather2_eq (U6 V)).trans (congrArg₂ (take7 (F := Ideal)) h13 s6)
  have t7 := (after_of_writes_sub (r := main_v3) gather2 (U6 V) gather2_w (by decide)).trans t6
  have g5 := (after_of_writes_sub (r := main_arg5) gather2 (U6 V) gather2_w (by decide)).trans f5
  -- added by the targets, the second bias broadcast and added
  have g8 := (sum2_eq (U7 V)).trans (congrArg₂ (fun a b => addf (F := Ideal) a b) (congrArg₂ (sum7 (F := Ideal)) t7 u7)
    (congrArg (fun b => broadcastInDim S100000x7 ![0, 1] Facts₀.bcast_S1x7_S100000x7_0_1
      (broadcastInDim S1x7 ![1] Facts₀.bcast_S7_S1x7_1 b)) g5))
  exact g8.trans (bias_eq _ _)

theorem keep_arg0 : after ops V (Proc.devRef .tc main_arg0) = (V (Proc.devRef .tc main_arg0)) :=
  keep_all V main_arg0 (by decide) (by decide) (by decide) (by decide) (by decide) (by decide) (by decide) (by decide)
theorem keep_arg1 : after ops V (Proc.devRef .tc main_arg1) = (V (Proc.devRef .tc main_arg1)) :=
  keep_all V main_arg1 (by decide) (by decide) (by decide) (by decide) (by decide) (by decide) (by decide) (by decide)
theorem keep_arg2 : after ops V (Proc.devRef .tc main_arg2) = (V (Proc.devRef .tc main_arg2)) :=
  keep_all V main_arg2 (by decide) (by decide) (by decide) (by decide) (by decide) (by decide) (by decide) (by decide)
theorem keep_arg3 : after ops V (Proc.devRef .tc main_arg3) = (V (Proc.devRef .tc main_arg3)) :=
  keep_all V main_arg3 (by decide) (by decide) (by decide) (by decide) (by decide) (by decide) (by decide) (by decide)
theorem keep_arg4 : after ops V (Proc.devRef .tc main_arg4) = (V (Proc.devRef .tc main_arg4)) :=
  keep_all V main_arg4 (by decide) (by decide) (by decide) (by decide) (by decide) (by decide) (by decide) (by decide)
theorem keep_arg5 : after ops V (Proc.devRef .tc main_arg5) = (V (Proc.devRef .tc main_arg5)) :=
  keep_all V main_arg5 (by decide) (by decide) (by decide) (by decide) (by decide) (by decide) (by decide) (by decide)

end Cert.ReferenceIdeal.Whole

end
-- ==== Proof.lean ====
/-
  A two-layer graph convolution without normalization, over 100000 nodes and 3200000 edges:

      out = (A · relu (A · (x W₁) + b₁) W₂) + b₂

  where `A ·` is the neighbour aggregation: gather the rows named by the edges' sources and add them into the rows
  named by the edges' targets. The kernel program computes the two products x W₁ and h W₂ in 25 row tiles of 4000
  nodes on the matrix unit (operands narrowed to bf16, accumulating from zero in f32) and the two bias passes in the
  same tiles, and leaves the aggregation to host operations; the reference computes everything with host operations.

  On the extended reals narrowing a float is the identity and a product accumulated from zero is the plain sum, so
  each tile of a product is the same rows of the whole product and each tile of a bias pass the same rows of the
  whole array; the tiles fill their arrays. The aggregation is the same chain of operations in both programs and is
  carried as one named function. So both programs end with their result at the same function `out` of their
  arguments, whatever the arguments are (no step uses that the inputs are finite: only sums of products in one
  order, a maximum with zero, and sums of two terms).

  The idealization rewrote no operation, so it preserves the kernel trivially. The kernel's and its idealization's
  frames are the launch of nine segments (four host stretches, four tiled regions); the reference's frame is its
  run as a straight line of 69 host operations, none of which writes an argument.
-/
import proofs.«156630_j22986664968500_1_alg».proof.Defs
import proofs.«156630_j22986664968500_1_alg».proof.Proof.Gen.Kernel
import proofs.«156630_j22986664968500_1_alg».proof.Proof.Gen.Kernel.Skeleton
import proofs.«156630_j22986664968500_1_alg».proof.Proof.Gen.Kernel.Launch
import proofs.«156630_j22986664968500_1_alg».proof.Proof.Gen.Kernel.Points
import proofs.«156630_j22986664968500_1_alg».proof.Proof.Gen.Kernel.Frame
import proofs.«156630_j22986664968500_1_alg».proof.Proof.Gen.KernelIdeal
import proofs.«156630_j22986664968500_1_alg».proof.Proof.Gen.KernelIdeal.Skeleton
import proofs.«156630_j22986664968500_1_alg».proof.Proof.Gen.KernelIdeal.Launch
import proofs.«156630_j22986664968500_1_alg».proof.Proof.Gen.KernelIdeal.Points
import proofs.«156630_j22986664968500_1_alg».proof.Proof.Gen.KernelIdeal.Frame
import proofs.«156630_j22986664968500_1_alg».proof.Proof.Gen.ReferenceIdeal
import proofs.«156630_j22986664968500_1_alg».proof.Proof.Gen.Pre_finite_inputs
import proofs.«156630_j22986664968500_1_alg».proof.Proof.KernelRun
import proofs.«156630_j22986664968500_1_alg».proof.Proof.KernelValue
import proofs.«156630_j22986664968500_1_alg».proof.Proof.RefRun
import proofs.«156630_j22986664968500_1_alg».proof.Proof.RefValue
import Idealize.ShloMosaic.Adequacy
import Idealize.ShloMosaic.Init

noncomputable section

namespace Cert.Proof

open Idealize.ShloMosaic Idealize.SL.Sem

/-- The kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs as a straight line of host operations, none of which writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.Whole.keep_arg0 _),
     (h c Cert.ReferenceIdeal.main_arg1).trans (Cert.ReferenceIdeal.Whole.keep_arg1 _),
     (h c Cert.ReferenceIdeal.main_arg2).trans (Cert.ReferenceIdeal.Whole.keep_arg2 _),
     (h c Cert.ReferenceIdeal.main_arg3).trans (Cert.ReferenceIdeal.Whole.keep_arg3 _),
     (h c Cert.ReferenceIdeal.main_arg4).trans (Cert.ReferenceIdeal.Whole.keep_arg4 _),
     (h c Cert.ReferenceIdeal.main_arg5).trans (Cert.ReferenceIdeal.Whole.keep_arg5 _)⟩)
    (Cert.ReferenceIdeal.Line.run (F := Ideal) m ρ)

/-- The idealization rewrote nothing. -/
theorem preserves : Cert.preserves_Kernel_KernelIdeal := trivial

/-- From memories agreeing on the arguments both idealized programs end with their result at the network's function
    `out` of the arguments, entry by entry the same extended reals, and with their arguments unchanged. -/
theorem algebraic : Cert.algebraic_KernelIdeal_ReferenceIdeal := by
  intro m ρ m' ρ' _ hagree
  refine ⟨fun c => Cert.GcnSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Run.run (F := Ideal) m ρ)
  · refine (θ_run Cert.ReferenceIdeal.defs _ _).mono (fun r h c =>
      ⟨?_, (h c Cert.ReferenceIdeal.main_arg0).trans (Cert.ReferenceIdeal.Whole.keep_arg0 _),
       (h c Cert.ReferenceIdeal.main_arg1).trans (Cert.ReferenceIdeal.Whole.keep_arg1 _),
       (h c Cert.ReferenceIdeal.main_arg2).trans (Cert.ReferenceIdeal.Whole.keep_arg2 _),
       (h c Cert.ReferenceIdeal.main_arg3).trans (Cert.ReferenceIdeal.Whole.keep_arg3 _),
       (h c Cert.ReferenceIdeal.main_arg4).trans (Cert.ReferenceIdeal.Whole.keep_arg4 _),
       (h c Cert.ReferenceIdeal.main_arg5).trans (Cert.ReferenceIdeal.Whole.keep_arg5 _)⟩)
      (Cert.ReferenceIdeal.Line.run (F := Ideal) m' ρ')
    refine (h c Cert.ReferenceIdeal.main_v20).trans ((Cert.ReferenceIdeal.Whole.fold_eq _).trans ?_)
    have hc := hagree c
    show Cert.GcnSpec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Cert.GcnSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    rw [hc.1, hc.2.1, hc.2.2.1, hc.2.2.2.1, hc.2.2.2.2.1, hc.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
